-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn_part1 {F : FTy → Type} [FloatOps F] (main_arg4 : FVec F S2048x4096 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  main_v23

def fn {F : FTy → Type} [FloatOps F] (main_arg0 : FVec F S2048x4096 .f32) (main_arg1 : FVec F S2048x4096 .f32) (main_arg2 : FVec F S2048x4096 .f32) (main_arg3 : FVec F S2048x4096 .f32) (main_arg4 : FVec F S2048x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_v13 main_v16
-- ==== Kernel.lean ====
abbrev S2048x4096 : Shape := ⟨2, ![2048, 4096]⟩
abbrev S1x1 : Shape := ⟨2, ![1, 1]⟩
abbrev S256x4096 : Shape := ⟨2, ![256, 4096]⟩
abbrev S1x256x4096 : Shape := ⟨3, ![1, 256, 4096]⟩
abbrev S1 : Shape := ⟨1, ![1]⟩
abbrev S1x1x1 : Shape := ⟨3, ![1, 1, 1]⟩
abbrev S_ : Shape := ⟨0, ![]⟩
abbrev S8x4096 : Shape := ⟨2, ![8, 4096]⟩
abbrev S1x4096 : Shape := ⟨2, ![1, 4096]⟩
abbrev S1x1x4096 : Shape := ⟨3, ![1, 1, 4096]⟩

abbrev nBuf : Space → Nat
  | .hbm => 32
  | .vmem => 11
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1, .f32⟩
  | .local _ .vmem, ⟨5, _⟩ => ⟨S1x1, .f32⟩
  | .local _ .vmem, ⟨6, _⟩ => ⟨S8x4096, .f32⟩
  | .local _ .vmem, ⟨7, _⟩ => ⟨S8x4096, .f32⟩
  | .local _ .vmem, ⟨8, _⟩ => ⟨S8x4096, .f32⟩
  | .local _ .vmem, ⟨9, _⟩ => ⟨S1x1, .f32⟩
  | .local _ .vmem, ⟨10, _⟩ => ⟨S1x1, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v17 : BitVec 1 := Scalar.cmpi .eq arg0 c7_i32
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c255_i32 : BitVec 32 := 255#32
  let c0_i32 : BitVec 32 := 0#32
  let c0_i32_0 : BitVec 32 := 0#32
  ![c255_i32.toNat, c0_i32.toNat]

def cc1_transform_1 (i : grid1.Coords) : Fin 2 → Nat :=
  let arg0 : BitVec 32 := BitVec.ofNat 32 (i 0).val
  let c255_i32 : BitVec 32 := 255#32
  let c0_i32 : BitVec 32 := 0#32
  let c0_i32_0 : BitVec 32 := 0#32
  ![c255_i32.toNat, c0_i32.toNat]

def cc1_transform_2 (i : grid1.Coords) : Fin 2 → Nat :=
  let arg0 : BitVec 32 := BitVec.ofNat 32 (i 0).val
  let c255_i32 : BitVec 32 := 255#32
  let c0_i32 : BitVec 32 := 0#32
  let c0_i32_0 : BitVec 32 := 0#32
  ![c255_i32.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  shapeCasts_S256x4096_S1x256x4096 : S256x4096.ShapeCasts S1x256x4096
  reduces_S1x256x4096_S1 : S1x256x4096.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  inb_S8x4096_S1x4096_7_0 : ∀ a, (![7, 0] : Fin 2 → Nat) a + S1x4096.size a ≤ S8x4096.size a
  h_S1x4096 : 0 < S1x4096.numel
  shapeCasts_S1x4096_S1x1x4096 : S1x4096.ShapeCasts S1x1x4096
  reduces_S1x1x4096_S1 : S1x1x4096.Reduces [1, 2] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x4096.size a
  hwx0_1 : ∀ i : grid0.Coords, EltTy.bits .f32 = 32 ∨ (Rect.block (s := S2048x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S8x4096.size a ≤ S2048x4096.size a
  hwx1_0 : ∀ i : grid1.Coords, EltTy.bits .f32 = 32 ∨ (Rect.block (s := S2048x4096) S8x4096.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S8x4096.size a ≤ S2048x4096.size a
  hwx1_1 : ∀ i : grid1.Coords, EltTy.bits .f32 = 32 ∨ (Rect.block (s := S2048x4096) S8x4096.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S8x4096.size a ≤ S2048x4096.size a
  hwx1_2 : ∀ i : grid1.Coords, EltTy.bits .f32 = 32 ∨ (Rect.block (s := S2048x4096) S8x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

abbrev win0_0 : Pipeline.Window sig grid0 :=
  Pipeline.Window.ofSpec (Memref.whole main_arg3) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S8x4096.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x4096.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8x4096.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x4096 : Shape := ⟨2, ![2048, 4096]⟩
abbrev S1x4096 : Shape := ⟨2, ![1, 4096]⟩
abbrev S4096 : Shape := ⟨1, ![4096]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S4096, .f32⟩
  | .hbm, ⟨9, _⟩ => ⟨S1x4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048x4096, .f32⟩
  | .hbm, ⟨32, _⟩ => ⟨S2048x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  slices_S2048x4096_S1x4096_2047_0 : S2048x4096.Slices ![2047, 0] S1x4096
  shapeCasts_S1x4096_S4096 : S1x4096.ShapeCasts S4096
  reducesTo_S4096_S_d0 : S4096.ReducesTo [0] S_
  h_S_ : 0 < S_.numel
  reducesTo_S2048x4096_S_d0_1 : S2048x4096.ReducesTo [0, 1] S_

variable [Facts₀]

class Facts : Prop extends Facts₀ where

variable [Facts]
-- ==== Proof.K.SumCall.lean ====
/-
  The first pallas_call: eight grid points, point t staging rows 256·t … 256·t+255 of arguments 3 and 4 (windows 0
  and 1); a one-element scratch accumulator carried from point to point; a one-element output window (window 2) written
  back after the last point only. At the first point the accumulator is zeroed; at every point it receives
      (its contents) + (sum over the block of (y - μ)²);
  at the last point its new contents are copied to the output window. So after point n the accumulator holds the sums
  of blocks 0 … n added onto zero, one block at a time — `accAfter` below, a recursion on the point.
  Everything is stated at the buffer contents `V` the call is entered with.
-/
import proofs.«103559_j20426864460201_1_alg».proof.Proof.Gen.Kernel.Launch
import proofs.«103559_j20426864460201_1_alg».proof.Proof.Gen.Kernel.Skeleton
import proofs.«103559_j20426864460201_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The zero offsets of a whole-buffer rectangle, however spelt. -/
theorem off2_zero : (![0, 0] : Fin 2 → Nat) = fun _ => 0 := by
  funext a; fin_cases a <;> rfl

/-- The first conditional of the body: taken at the first grid point only (the accumulator is zeroed there). -/
abbrev firstCond (i : grid0.Coords) : Prop :=
  (Scalar.cmpi .ne (Scalar.extui (Scalar.cmpi .eq (BitVec.ofNat 32 (i 0).val) 0#32)) 0#32) = 1#1
/-- The second conditional: taken at the last grid point only (the accumulator is copied to the output window there). -/
abbrev lastCond (i : grid0.Coords) : Prop := k0_cond2 i = 1#1

theorem firstCond_iff : ∀ t : Fin cfg0.N, firstCond (grid0.coords t) ↔ t.val = 0 :=
  (by decide +kernel : ∀ t : Fin grid0.N, firstCond (grid0.coords t) ↔ t.val = 0)
theorem lastCond_iff : ∀ t : Fin cfg0.N, lastCond (grid0.coords t) ↔ t.val = 7 :=
  (by decide +kernel : ∀ t : Fin grid0.N, lastCond (grid0.coords t) ↔ t.val = 7)

/-- One store of the whole one-element buffer, last, covers it. -/
theorem cell_covers {p : Vec F S1x1 .f32} {Ls : List (View.Piece (Elt F) S1x1 .f32)} (y : S1x1.Idx) :
    ∃ pc ∈ ((⟨Rect.unit (s := S1x1) ![0, 0] S1x1.size inb_S1x1_S1x1_0_0, p⟩ : View.Piece (Elt F) S1x1 .f32) :: Ls), y ∈ pc.1.set :=
  ⟨_, List.mem_cons_self, View.mem_set_unit_zero off2_zero inb_S1x1_S1x1_0_0 y⟩

set_option maxHeartbeats 2000000 in
/-- The body at the FIRST point: the accumulator, whatever it held, is zeroed and then receives the block's sum of
    squared differences; the output window's buffer is handed back as found. -/
theorem sumKernel_first (c : Dev nD) (E : Set ℕ) (i : grid0.Coords) (hA : firstCond i) (hB : ¬ lastCond i)
    (a1 : Memref sig .tc .vmem S256x4096 .f32) (h1 : a1.IsWhole) (a2 : Memref sig .tc .vmem S256x4096 .f32) (h2 : a2.IsWhole)
    (a3 : Memref sig .tc .vmem S1x1 .f32) (h3 : a3.IsWhole) (a4 : Memref sig .tc .vmem S1x1 .f32) (h4 : a4.IsWhole)
    (x0 x1 : Vec F S256x4096 .f32) (xo : Vec F S1x1 .f32) (K : PUnit → sProp 𝕄) :
    iprop(owns (c : Thread nD τ) a1 fullShare x0 ∗ owns (c : Thread nD τ) a2 fullShare x1 ∗ owns (c : Thread nD τ) a3 fullShare xo
        ∗ (∃ d, owns (c : Thread nD τ) a4 fullShare d)
        ∗ (iprop(owns (c : Thread nD τ) a1 fullShare x0 ∗ owns (c : Thread nD τ) a2 fullShare x1 ∗ owns (c : Thread nD τ) a3 fullShare xo
            ∗ owns (c : Thread nD τ) a4 fullShare (k0_pay2 x0 x1 (k0_pay1 (F := F)))) -∗ K ⟨⟩))
      ⊢ wp frame (wpE (defs₀ (F := F)) Variants.none c none) E (cc0__mse_sum_kernel i a1 h1 a2 h2 a3 h3 a4 h4) K := by
  simp only [cc0__mse_sum_kernel_eq_skeleton]; unfold cc0__mse_sum_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try sl_unfold_run_names
  refine (View.read_writes_eq_canon _ _ _ cell_covers).trans ?_
  refine (View.canon_cons_unit_zero off2_zero _ _ _).trans ?_
  simp only [View.readAt_eq_ld, View.ld_unit_zero (S := S256x4096) off2_zero, View.ld_unit_zero (S := S1x1) off2_zero,
    View.readCov_unit_zero (S := S1x1) _ off2_zero]

set_option maxHeartbeats 2000000 in
/-- The body at a MIDDLE point: the accumulator, at `xs`, receives the block's sum on top; the output window's buffer is
    handed back as found. -/
theorem sumKernel_mid (c : Dev nD) (E : Set ℕ) (i : grid0.Coords) (hA : ¬ firstCond i) (hB : ¬ lastCond i)
    (a1 : Memref sig .tc .vmem S256x4096 .f32) (h1 : a1.IsWhole) (a2 : Memref sig .tc .vmem S256x4096 .f32) (h2 : a2.IsWhole)
    (a3 : Memref sig .tc .vmem S1x1 .f32) (h3 : a3.IsWhole) (a4 : Memref sig .tc .vmem S1x1 .f32) (h4 : a4.IsWhole)
    (x0 x1 : Vec F S256x4096 .f32) (xo xs : Vec F S1x1 .f32) (K : PUnit → sProp 𝕄) :
    iprop(owns (c : Thread nD τ) a1 fullShare x0 ∗ owns (c : Thread nD τ) a2 fullShare x1 ∗ owns (c : Thread nD τ) a3 fullShare xo
        ∗ owns (c : Thread nD τ) a4 fullShare xs
        ∗ (iprop(owns (c : Thread nD τ) a1 fullShare x0 ∗ owns (c : Thread nD τ) a2 fullShare x1 ∗ owns (c : Thread nD τ) a3 fullShare xo
            ∗ owns (c : Thread nD τ) a4 fullShare (k0_pay2 x0 x1 xs)) -∗ K ⟨⟩))
      ⊢ wp frame (wpE (defs₀ (F := F)) Variants.none c none) E (cc0__mse_sum_kernel i a1 h1 a2 h2 a3 h3 a4 h4) K := by
  simp only [cc0__mse_sum_kernel_eq_skeleton]; unfold cc0__mse_sum_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try sl_unfold_run_names
  refine (View.read_writes_eq_canon _ _ _ cell_covers).trans ?_
  refine (View.canon_cons_unit_zero off2_zero _ _ _).trans ?_
  simp only [View.readAt_eq_ld, View.ld_unit_zero (S := S256x4096) off2_zero, View.ld_unit_zero (S := S1x1) off2_zero,
    View.readCov_unit_zero (S := S1x1) _ off2_zero]

set_option maxHeartbeats 2000000 in
/-- The body at the LAST point: as at a middle point, and the output window's buffer receives the accumulator's new contents. -/
theorem sumKernel_last (c : Dev nD) (E : Set ℕ) (i : grid0.Coords) (hA : ¬ firstCond i) (hB : lastCond i)
    (a1 : Memref sig .tc .vmem S256x4096 .f32) (h1 : a1.IsWhole) (a2 : Memref sig .tc .vmem S256x4096 .f32) (h2 : a2.IsWhole)
    (a3 : Memref sig .tc .vmem S1x1 .f32) (h3 : a3.IsWhole) (a4 : Memref sig .tc .vmem S1x1 .f32) (h4 : a4.IsWhole)
    (x0 x1 : Vec F S256x4096 .f32) (xs : Vec F S1x1 .f32) (K : PUnit → sProp 𝕄) :
    iprop(owns (c : Thread nD τ) a1 fullShare x0 ∗ owns (c : Thread nD τ) a2 fullShare x1 ∗ (∃ d, owns (c : Thread nD τ) a3 fullShare d)
        ∗ owns (c : Thread nD τ) a4 fullShare xs
        ∗ (iprop(owns (c : Thread nD τ) a1 fullShare x0 ∗ owns (c : Thread nD τ) a2 fullShare x1
            ∗ owns (c : Thread nD τ) a3 fullShare (k0_pay2 x0 x1 xs)
            ∗ owns (c : Thread nD τ) a4 fullShare (k0_pay2 x0 x1 xs)) -∗ K ⟨⟩))
      ⊢ wp frame (wpE (defs₀ (F := F)) Variants.none c none) E (cc0__mse_sum_kernel i a1 h1 a2 h2 a3 h3 a4 h4) K := by
  simp only [cc0__mse_sum_kernel_eq_skeleton]; unfold cc0__mse_sum_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_run_names
    refine (View.read_writes_eq_canon _ _ _ cell_covers).trans ?_
    refine (View.canon_cons_unit_zero off2_zero _ _ _).trans ?_
    simp only [View.readAt_eq_ld, View.ld_unit_zero (S := S256x4096) off2_zero, View.ld_unit_zero (S := S1x1) off2_zero,
      View.readCov_unit_zero (S := S1x1) _ off2_zero]
  iexists _; isplitr
  swap; · iexact H3
  ipureintro
  try sl_unfold_run_names
  refine (View.read_writes_eq_canon _ _ _ cell_covers).trans ?_
  refine (View.canon_cons_unit_zero off2_zero _ _ _).trans ?_
  simp only [View.readAt_eq_ld, View.ld_unit_zero (S := S256x4096) off2_zero, View.ld_unit_zero (S := S1x1) off2_zero,
    View.readCov_unit_zero (S := S1x1) _ off2_zero]

/-! ## The blocks, and the accumulator point by point -/

variable (V : (c : Dev nD) → (b : Ref sig .tc) → Buf (Elt F) ((c : Thread nD τ).loc b))

/-- The block of window `w` at point `t`, read off the window's array as the call finds it. -/
def sumBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the accumulator holds after the body at position `n`: block `n`'s sum added onto what position `n - 1` left,
    onto the zero at the first position. -/
def accAfter (c : Dev nD) : (n : ℕ) → n < cfg0.N → Vec F S1x1 .f32
  | 0, hn => k0_pay2 (sumBlk V c 0 ⟨0, hn⟩) (sumBlk V c 1 ⟨0, hn⟩) (k0_pay1 (F := F))
  | n + 1, hn => k0_pay2 (sumBlk V c 0 ⟨n + 1, hn⟩) (sumBlk V c 1 ⟨n + 1, hn⟩) (accAfter c n (Nat.lt_of_succ_lt hn))

theorem accAfter_first (c : Dev nD) (t : Fin cfg0.N) (h : t.val = 0) :
    accAfter V c t.val t.isLt = k0_pay2 (sumBlk V c 0 t) (sumBlk V c 1 t) (k0_pay1 (F := F)) := by
  obtain ⟨n, hn⟩ := t
  cases n with
  | zero => rfl
  | succ n => exact absurd h (Nat.succ_ne_zero n)

theorem accAfter_later (c : Dev nD) (t : Fin cfg0.N) (h : t.val ≠ 0) :
    accAfter V c t.val t.isLt
      = k0_pay2 (sumBlk V c 0 t) (sumBlk V c 1 t) (accAfter V c (t.val - 1) (Nat.lt_of_le_of_lt (Nat.sub_le _ _) t.isLt)) := by
  obtain ⟨n, hn⟩ := t
  cases n with
  | zero => exact absurd rfl h
  | succ n => rfl

/-! ## The invariant: the accumulator's contents are carried -/

/-- The accumulator: the call's scratch operand, a whole scoped buffer. -/
abbrev accRef : Memref sig .tc .vmem S1x1 .f32 := Memref.whole cc0_scratch0

/-- The core's other scoped buffers that this call does not stage (the second call's staging buffers), at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f))

/-- What the launch hands the call — every scoped buffer it does not stage at some contents, and the generator
    register — with the accumulator singled out. -/
theorem classInv_eq (c : Dev nD) :
    (Pipeline.ΦA spec0 c : sProp 𝕄)
      = iprop(((∃ d, owns (c : Thread nD τ) accRef fullShare d) ∗ otherScoped c) ∗ (∃ r, prngReg c r)) := by
  unfold Pipeline.ΦA otherScoped; rw [scopedRest0_eq]; simp only [accRef, owns_whole]; try rfl

/-- The invariant before position `n`: before the first point the accumulator holds anything; afterwards what the
    point before left. -/
def sumInv (c : Dev nD) : (n : ℕ) → n ≤ cfg0.N → sProp 𝕄
  | 0, _ => Pipeline.ΦA spec0 c
  | n + 1, hn => iprop((owns (c : Thread nD τ) accRef fullShare (accAfter V c n hn) ∗ otherScoped c) ∗ (∃ r, prngReg c r))

theorem sumInv_zero (c : Dev nD) (n : ℕ) (h : n ≤ cfg0.N) (hz : n = 0) : sumInv V c n h = Pipeline.ΦA spec0 c := by
  subst hz; rfl

theorem sumInv_succ (c : Dev nD) (n : ℕ) (hn : n < cfg0.N) :
    sumInv V c (n + 1) hn = iprop((owns (c : Thread nD τ) accRef fullShare (accAfter V c n hn) ∗ otherScoped c) ∗ (∃ r, prngReg c r)) := rfl

theorem sumInv_pos (c : Dev nD) (n : ℕ) (h : n ≤ cfg0.N) (hz : n ≠ 0) :
    sumInv V c n h = iprop((owns (c : Thread nD τ) accRef fullShare (accAfter V c (n - 1) (by omega)) ∗ otherScoped c) ∗ (∃ r, prngReg c r)) := by
  cases n with
  | zero => exact absurd rfl hz
  | succ n => rfl

/-! ## The proof data -/

/-- The proof data of the call: its arrays as found; each input's buffer left at its block; the output window's buffer,
    where the body stores into it, at the accumulator's contents after that point; the invariant above. -/
def sumDat (c : Dev nD) : Dat τ (Elt F) Unit ℕ (UR sig nD τ) ℕ cfg0 c where
  A w := V c (Pipeline.arrRef spec0 w)
  after w t := match w with
    | ⟨0, _⟩ => sumBlk V c 0 t
    | ⟨1, _⟩ => sumBlk V c 1 t
    | ⟨2, _⟩ => accAfter V c t.val t.isLt
  Φ t := sumInv V c t.val (Nat.le_of_lt_succ t.isLt)
  q _ := fullShare
  owed _ := 0

theorem sumDat_A (c : Dev nD) (w : Fin cfg0.W) : (sumDat V c).A w = V c (Pipeline.arrRef spec0 w) := by
  dsimp only [sumDat]
theorem sumDat_after0 (c : Dev nD) (t : Fin cfg0.N) : (sumDat V c).after 0 t = sumBlk V c 0 t := by dsimp only [sumDat]
theorem sumDat_after1 (c : Dev nD) (t : Fin cfg0.N) : (sumDat V c).after 1 t = sumBlk V c 1 t := by dsimp only [sumDat]
theorem sumDat_after2 (c : Dev nD) (t : Fin cfg0.N) : (sumDat V c).after 2 t = accAfter V c t.val t.isLt := by dsimp only [sumDat]

theorem sumDat_inv_castSucc (c : Dev nD) (t : Fin cfg0.N) :
    (sumDat V c).Φ t.castSucc = sumInv V c t.val (Nat.le_of_lt t.isLt) := by
  dsimp only [sumDat]; simp only [Fin.coe_castSucc]

/-- An input's staging buffer holds its block when the body runs, fetched at that point or not. -/
theorem sumDat_before0 (c : Dev nD) (t : Fin cfg0.N) (d) : (sumDat V c).before 0 t d = sumBlk V c 0 t :=
  ((sumDat V c).before_in_eq_fetched 0 rfl (fun _ => rfl) (fun _ _ _ => rfl)
    (fun t => by rw [sumDat_after0]; unfold Dat.blockOf sumBlk; rw [sumDat_A]; try rfl) t d).trans
    (by unfold Dat.fetched Dat.blockOf sumBlk; rw [sumDat_A]; try rfl)
theorem sumDat_before1 (c : Dev nD) (t : Fin cfg0.N) (d) : (sumDat V c).before 1 t d = sumBlk V c 1 t :=
  ((sumDat V c).before_in_eq_fetched 1 rfl (fun _ => rfl) (fun _ _ _ => rfl)
    (fun t => by rw [sumDat_after1]; unfold Dat.blockOf sumBlk; rw [sumDat_A]; try rfl) t d).trans
    (by unfold Dat.fetched Dat.blockOf sumBlk; rw [sumDat_A]; try rfl)

/-! ## Where the windows are live -/

theorem live0 : ∀ t : Fin cfg0.N, cfg0.idle 0 (grid0.coords t) = false :=
  (by decide +kernel : ∀ t : Fin grid0.N, cfg0.idle 0 (grid0.coords t) = false)
theorem live1 : ∀ t : Fin cfg0.N, cfg0.idle 1 (grid0.coords t) = false :=
  (by decide +kernel : ∀ t : Fin grid0.N, cfg0.idle 1 (grid0.coords t) = false)
/-- Before the last point the output window is idle (the body stores nothing into it) and is not written back. -/
theorem idle2 : ∀ t : Fin cfg0.N, t.val ≠ 7 → cfg0.idle 2 (grid0.coords t) = true :=
  (by decide +kernel : ∀ t : Fin grid0.N, t.val ≠ 7 → cfg0.idle 2 (grid0.coords t) = true)
theorem noFlush2 : ∀ t : Fin cfg0.N, t.val ≠ 7 → (cfg0.win 2).flush t = false :=
  (by decide +kernel : ∀ t : Fin grid0.N, t.val ≠ 7 → (cfg0.win 2).flush t = false)
theorem live2 : ∀ t : Fin cfg0.N, t.val = 7 → cfg0.idle 2 (grid0.coords t) = false :=
  (by decide +kernel : ∀ t : Fin grid0.N, t.val = 7 → cfg0.idle 2 (grid0.coords t) = false)

/-! ## The body obligation -/

/-- What the body is called with at point `t`, the windows one by one, -/
def sumPre (c : Dev nD) (t : Fin cfg0.N) : sProp 𝕄 :=
  iprop((sumDat V c).Φ t.castSucc ∗ (sumDat V c).owesAt () t.castSucc
    ∗ (∃ d, owns (c : Thread nD τ) (st0_0 t) fullShare ((sumDat V c).before 0 t d))
    ∗ (∃ d, owns (c : Thread nD τ) (st0_1 t) fullShare ((sumDat V c).before 1 t d))
    ∗ (∃ d, owns (c : Thread nD τ) (st0_2 t) fullShare ((sumDat V c).before 2 t d)))

/-- and what it returns. -/
def sumPost (c : Dev nD) (t : Fin cfg0.N) : sProp 𝕄 :=
  iprop((sumDat V c).Φ t.succ ∗ (sumDat V c).owesAt () t.succ
    ∗ (sumDat V c).leavesExact 0 t
    ∗ (sumDat V c).leavesExact 1 t
    ∗ (sumDat V c).leavesExact 2 t)

set_option maxHeartbeats 4000000 in
/-- The body at any point, by the point's position: first, middle, last. The invariant hands the body the accumulator
    at what the point before left (at anything, at the first point) and takes it back at this point's contents. -/
theorem sumBody (c : Dev nD) (t : Fin cfg0.N) :
    sumPre V c t ⊢ wp frame (wpE (defs₀ (F := F)) Variants.none c none) Set.univ (bodyAt0 t) (fun _ => sumPost V c t) := by
  unfold sumPre sumPost bodyAt0
  simp only [sumDat_before0, sumDat_before1]
  rw [show (sumDat V c).owesAt () t.succ = (sumDat V c).owesAt () t.castSucc from rfl]
  rw [show (sumDat V c).Φ t.succ = sumInv V c (t.val + 1) t.isLt from rfl, sumInv_succ]
  rw [show (sumDat V c).leavesExact 0 t = owns (c : Thread nD τ) (st0_0 t) fullShare ((sumDat V c).after 0 t) from by
    unfold Dat.leavesExact; rw [live0 t], sumDat_after0]
  rw [show (sumDat V c).leavesExact 1 t = owns (c : Thread nD τ) (st0_1 t) fullShare ((sumDat V c).after 1 t) from by
    unfold Dat.leavesExact; rw [live1 t], sumDat_after1]
  rw [sumDat_inv_castSucc]
  have hN : t.val < 8 := lt_of_lt_of_eq t.isLt (show cfg0.N = 8 from N_0)
  by_cases h0 : t.val = 0
  · have hA : firstCond (grid0.coords t) := (firstCond_iff t).mpr h0
    have hB : ¬ lastCond (grid0.coords t) := fun h => by have := (lastCond_iff t).mp h; omega
    rw [Dat.leavesExact_idle (sumDat V c) 2 t (idle2 t (by omega)) (noFlush2 t (by omega))]
    rw [accAfter_first V c t h0, sumInv_zero V c _ _ h0, classInv_eq]
    iintro ⟨⟨⟨HS, Hoth⟩, Hg⟩, Ho, ⟨%d0, H0⟩, ⟨%d1, H1⟩, ⟨%d2, H2⟩⟩
    iapply (sumKernel_first c Set.univ (grid0.coords t) hA hB _ _ _ _ _ _ _ _ (sumBlk V c 0 t) (sumBlk V c 1 t) _ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hA : ¬ firstCond (grid0.coords t) := fun h => h0 ((firstCond_iff t).mp h)
    rw [accAfter_later V c t h0, sumInv_pos V c _ _ h0]
    by_cases h7 : t.val = 7
    · have hB : lastCond (grid0.coords t) := (lastCond_iff t).mpr h7
      rw [show (sumDat V c).leavesExact 2 t = owns (c : Thread nD τ) (st0_2 t) fullShare ((sumDat V c).after 2 t) from by
        unfold Dat.leavesExact; rw [live2 t h7], sumDat_after2, accAfter_later V c t h0]
      iintro ⟨⟨⟨HS, Hoth⟩, Hg⟩, Ho, ⟨%d0, H0⟩, ⟨%d1, H1⟩, ⟨%d2, H2⟩⟩
      iapply (sumKernel_last c Set.univ (grid0.coords t) hA hB _ _ _ _ _ _ _ _ (sumBlk V c 0 t) (sumBlk V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hB : ¬ lastCond (grid0.coords t) := fun h => h7 ((lastCond_iff t).mp h)
      rw [Dat.leavesExact_idle (sumDat V c) 2 t (idle2 t h7) (noFlush2 t h7)]
      iintro ⟨⟨⟨HS, Hoth⟩, Hg⟩, Ho, ⟨%d0, H0⟩, ⟨%d1, H1⟩, ⟨%d2, H2⟩⟩
      iapply (sumKernel_mid c Set.univ (grid0.coords t) hA hB _ _ _ _ _ _ _ _ (sumBlk V c 0 t) (sumBlk V c 1 t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation for the call. -/
theorem sumObligation (c : Dev nD) : BodyObligation (sumDat (F := F) V c) (defs₀ (F := F)) Variants.none () Set.univ := fun t => by
  rw [bigSep_W0, bigSep_W0]
  exact sumBody V c t

/-- What the launch hands the call is the invariant before the first point. -/
theorem sumInv_in (c : Dev nD) : Pipeline.ΦA spec0 c ⊢ (sumDat V c).Φ 0 := by
  rw [show (sumDat V c).Φ 0 = sumInv V c 0 (Nat.zero_le _) from rfl, sumInv_zero V c 0 _ rfl]
  try exact Idealize.SL.BI.Entails.refl _

/-- After the last point the invariant gives that back: the accumulator's contents are forgotten. -/
theorem sumInv_out (c : Dev nD) : (sumDat V c).Φ (Fin.last cfg0.N) ⊢ Pipeline.ΦA spec0 c := by
  rw [show (sumDat V c).Φ (Fin.last cfg0.N) = sumInv V c (Fin.last cfg0.N).val (Nat.le_of_lt_succ (Fin.last cfg0.N).isLt) from rfl,
    sumInv_pos V c _ _ (by rw [Fin.val_last]; have : cfg0.N = 8 := N_0; omega), classInv_eq]
  iintro ⟨⟨HS, Hoth⟩, Hg⟩
  isplitl [HS Hoth]
  · isplitl [HS]; · iexists _; iexact HS
    iexact Hoth
  iexact Hg

end Cert.Kernel.Frame

end
-- ==== Proof.K.RowCall.lean ====
/-
  The second pallas_call: one grid point; three input windows (the 8-row block holding the last row of each of the
  first three arguments) and two one-element output windows. Row 7 of each block is loaded, and the body stores
    window 3 := sum over the row of (x - m)^2 / v        window 4 := sum over the row of log v
  (m, v, x the rows of arguments 0, 1, 2). Everything here is stated at the buffer contents `V` the call is
  entered with, so that it can be placed anywhere in the run.
-/
import proofs.«103559_j20426864460201_1_alg».proof.Proof.Gen.Kernel.Launch
import proofs.«103559_j20426864460201_1_alg».proof.Proof.Gen.Kernel.Skeleton
import proofs.«103559_j20426864460201_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at the call's grid point, read off the window's array as the call finds it. -/
def rowBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Row 7 of an 8-row block: the rectangle all three loads use. -/
abbrev lastRow : Rect S8x4096 := Rect.unit (s := S8x4096) ![7, 0] S1x4096.size inb_S8x4096_S1x4096_7_0
/-- The one element of a one-element buffer: the rectangle both stores use. -/
abbrev cell : Rect S1x1 := Rect.unit (s := S1x1) ![0, 0] S1x1.size inb_S1x1_S1x1_0_0

/-- What the body leaves in window 3: the quadratic-form sum of the last rows. -/
def quadOut (x0 x1 x2 : Vec F S8x4096 .f32) : Vec F S1x1 .f32 :=
  View.canon [⟨cell, k1_pay1 (View.ld x0 lastRow) (View.ld x1 lastRow) (View.ld x2 lastRow)⟩]
/-- What the body leaves in window 4: the sum of the logarithms of the variance row. -/
def logOut (x1 : Vec F S8x4096 .f32) : Vec F S1x1 .f32 :=
  View.canon [⟨cell, k1_pay2 (View.ld x1 lastRow)⟩]

/-- One store of the whole one-element buffer covers it. -/
theorem cell_cover (p : Vec F S1x1 .f32) (y : S1x1.Idx) :
    ∃ pc ∈ ([⟨cell, p⟩] : List (View.Piece (Elt F) S1x1 .f32)), y ∈ pc.1.set :=
  View.cover_of_tiled [⟨cell, p⟩] S1x1.size (by rfl) y

set_option maxHeartbeats 1000000 in
/-- The body on whole staging buffers: the inputs are read and left as they were, each output ends at its sum. -/
theorem rowKernel (c : Dev nD) (E : Set ℕ) (i : grid1.Coords)
    (a1 : Memref sig .tc .vmem S8x4096 .f32) (h1 : a1.IsWhole) (a2 : Memref sig .tc .vmem S8x4096 .f32) (h2 : a2.IsWhole)
    (a3 : Memref sig .tc .vmem S8x4096 .f32) (h3 : a3.IsWhole) (a4 : Memref sig .tc .vmem S1x1 .f32) (h4 : a4.IsWhole)
    (a5 : Memref sig .tc .vmem S1x1 .f32) (h5 : a5.IsWhole)
    (x0 x1 x2 : Vec F S8x4096 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare (quadOut x0 x1 x2) ∗ owns (c : Thread nD τ) a5 fullShare (logOut x1)) -∗ K ⟨⟩))
      ⊢ wp frame (wpE (defs₀ (F := F)) Variants.none c none) E (cc1__lastrow_kernel i a1 h1 a2 h2 a3 h3 a4 h4 a5 h5) K := by
  simp only [cc1__lastrow_kernel_eq_skeleton]; unfold cc1__lastrow_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cell_cover _)
  iexists _; isplitr
  swap; · iexact H4
  ipureintro
  exact View.read_writes_eq_canon _ _ _ (cell_cover _)

/-- The proof data of the call: its arrays as found; each input's buffer left at its block, each output's at its sum;
    the invariant is the scoped buffers the call does not stage and the generator register, untouched. -/
def rowDat (c : Dev nD) : Dat τ (Elt F) Unit ℕ (UR sig nD τ) ℕ cfg1 c where
  A w := V c (Pipeline.arrRef spec1 w)
  after w t := match w with
    | ⟨0, _⟩ => rowBlk V c 0 t
    | ⟨1, _⟩ => rowBlk V c 1 t
    | ⟨2, _⟩ => rowBlk V c 2 t
    | ⟨3, _⟩ => quadOut (rowBlk V c 0 t) (rowBlk V c 1 t) (rowBlk V c 2 t)
    | ⟨4, _⟩ => logOut (rowBlk V c 1 t)
  Φ _ := Pipeline.ΦA spec1 c
  q _ := fullShare
  owed _ := 0

theorem rowDat_A (c : Dev nD) (w : Fin cfg1.W) : (rowDat V c).A w = V c (Pipeline.arrRef spec1 w) := by
  dsimp only [rowDat]
theorem rowDat_after0 (c : Dev nD) (t : Fin cfg1.N) : (rowDat V c).after 0 t = rowBlk V c 0 t := by dsimp only [rowDat]
theorem rowDat_after1 (c : Dev nD) (t : Fin cfg1.N) : (rowDat V c).after 1 t = rowBlk V c 1 t := by dsimp only [rowDat]
theorem rowDat_after2 (c : Dev nD) (t : Fin cfg1.N) : (rowDat V c).after 2 t = rowBlk V c 2 t := by dsimp only [rowDat]
theorem rowDat_after3 (c : Dev nD) (t : Fin cfg1.N) :
    (rowDat V c).after 3 t = quadOut (rowBlk V c 0 t) (rowBlk V c 1 t) (rowBlk V c 2 t) := by dsimp only [rowDat]
theorem rowDat_after4 (c : Dev nD) (t : Fin cfg1.N) : (rowDat V c).after 4 t = logOut (rowBlk V c 1 t) := by dsimp only [rowDat]

/-- An input's staging buffer holds its block when the body runs. -/
theorem rowDat_before0 (c : Dev nD) (t : Fin cfg1.N) (d) : (rowDat V c).before 0 t d = rowBlk V c 0 t :=
  ((rowDat V c).before_in_eq_fetched 0 rfl (fun _ => rfl) (fun _ _ _ => rfl)
    (fun t => by rw [rowDat_after0]; unfold Dat.blockOf rowBlk; rw [rowDat_A]; try rfl) t d).trans
    (by unfold Dat.fetched Dat.blockOf rowBlk; rw [rowDat_A]; try rfl)
theorem rowDat_before1 (c : Dev nD) (t : Fin cfg1.N) (d) : (rowDat V c).before 1 t d = rowBlk V c 1 t :=
  ((rowDat V c).before_in_eq_fetched 1 rfl (fun _ => rfl) (fun _ _ _ => rfl)
    (fun t => by rw [rowDat_after1]; unfold Dat.blockOf rowBlk; rw [rowDat_A]; try rfl) t d).trans
    (by unfold Dat.fetched Dat.blockOf rowBlk; rw [rowDat_A]; try rfl)
theorem rowDat_before2 (c : Dev nD) (t : Fin cfg1.N) (d) : (rowDat V c).before 2 t d = rowBlk V c 2 t :=
  ((rowDat V c).before_in_eq_fetched 2 rfl (fun _ => rfl) (fun _ _ _ => rfl)
    (fun t => by rw [rowDat_after2]; unfold Dat.blockOf rowBlk; rw [rowDat_A]; try rfl) t d).trans
    (by unfold Dat.fetched Dat.blockOf rowBlk; rw [rowDat_A]; try rfl)

/-- What the body is called with at the point, the windows one by one, -/
def rowPre (c : Dev nD) (t : Fin cfg1.N) : sProp 𝕄 :=
  iprop((rowDat V c).Φ t.castSucc ∗ (rowDat V c).owesAt () t.castSucc
    ∗ (∃ d, owns (c : Thread nD τ) (st1_0 t) fullShare ((rowDat V c).before 0 t d))
    ∗ (∃ d, owns (c : Thread nD τ) (st1_1 t) fullShare ((rowDat V c).before 1 t d))
    ∗ (∃ d, owns (c : Thread nD τ) (st1_2 t) fullShare ((rowDat V c).before 2 t d))
    ∗ (∃ d, owns (c : Thread nD τ) (st1_3 t) fullShare ((rowDat V c).before 3 t d))
    ∗ (∃ d, owns (c : Thread nD τ) (st1_4 t) fullShare ((rowDat V c).before 4 t d)))

/-- and what it returns. -/
def rowPost (c : Dev nD) (t : Fin cfg1.N) : sProp 𝕄 :=
  iprop((rowDat V c).Φ t.succ ∗ (rowDat V c).owesAt () t.succ
    ∗ owns (c : Thread nD τ) (st1_0 t) fullShare ((rowDat V c).after 0 t)
    ∗ owns (c : Thread nD τ) (st1_1 t) fullShare ((rowDat V c).after 1 t)
    ∗ owns (c : Thread nD τ) (st1_2 t) fullShare ((rowDat V c).after 2 t)
    ∗ owns (c : Thread nD τ) (st1_3 t) fullShare ((rowDat V c).after 3 t)
    ∗ owns (c : Thread nD τ) (st1_4 t) fullShare ((rowDat V c).after 4 t))

theorem rowBody (c : Dev nD) (t : Fin cfg1.N) :
    rowPre V c t ⊢ wp frame (wpE (defs₀ (F := F)) Variants.none c none) Set.univ (bodyAt1 t) (fun _ => rowPost V c t) := by
  unfold rowPre rowPost bodyAt1
  simp only [rowDat_before0, rowDat_before1, rowDat_before2]
  rw [show (rowDat V c).Φ t.succ = (rowDat V c).Φ t.castSucc from rfl,
    show (rowDat V c).owesAt () t.succ = (rowDat V c).owesAt () t.castSucc from rfl,
    rowDat_after0, rowDat_after1, rowDat_after2, rowDat_after3, rowDat_after4]
  iintro ⟨HΦ, Ho, ⟨%d0, H0⟩, ⟨%d1, H1⟩, ⟨%d2, H2⟩, ⟨%d3, H3⟩, ⟨%d4, H4⟩⟩
  iapply (rowKernel c Set.univ _ _ _ _ _ _ _ _ _ _ _ (rowBlk V c 0 t) (rowBlk V c 1 t) (rowBlk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the call. -/
theorem rowObligation (c : Dev nD) : BodyObligation (rowDat (F := F) V c) (defs₀ (F := F)) Variants.none () Set.univ := fun t => by
  rw [bigSep_W1, bigSep_W1]
  exact rowBody V c t

end Cert.Kernel.Frame

end
-- ==== Proof.K.Run.lean ====
/-
  The whole run of @main: the first pallas_call, three host operations, the second pallas_call, twenty-one host
  operations. Between two items a core holds every unscoped buffer at known contents — the launch memory, then what
  each call's write-backs leave in its arrays and what each host stretch computes, folded in order (`B0` … `B4`) —
  beside its generator register and the fact that it owes nothing. Every weakly fair execution terminates, and the
  final memory holds every unscoped buffer at the last fold `B4`: from this one statement both the frame (no
  argument's buffer is ever written) and the result's value are read.
-/
import proofs.«103559_j20426864460201_1_alg».proof.Proof.K.SumCall
import proofs.«103559_j20426864460201_1_alg».proof.Proof.K.RowCall

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev B0 : Dev nD → Valuation τ sig (Elt F) := fun c b => (s₀ m ρ).mem ((c : Dev nD), b)
/-- The same read at the TensorCore's references: what the first call is entered with. -/
abbrev E0 : (c : Dev nD) → (b : Ref sig .tc) → Buf (Elt F) ((c : Thread nD τ).loc b) := fun c b => B0 m ρ c b

/-- After the first call: its arrays at what its write-backs leave, every other buffer as before. -/
def B1 (c : Dev nD) : Valuation τ sig (Elt F) :=
  Pipeline.withArrays spec0 c (B0 m ρ c) fun w => (sumDat (E0 m ρ) c).arrAt w cfg0.N
theorem B1_arr (c : Dev nD) (w : Fin cfg0.W) :
    B1 m ρ c (Proc.devRef .tc (Pipeline.arrRef spec0 w)) = (sumDat (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem left0 (c : Dev nD) (w : Fin cfg0.W) : (sumDat (E0 m ρ) c).arrAt w cfg0.N = E1 m ρ c (Pipeline.arrRef spec0 w) :=
  (B1_arr m ρ c w).symm
theorem kept0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the first host stretch: what the second call is entered with. -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b

/-- After the second call. -/
def B3 (c : Dev nD) : Valuation τ sig (Elt F) :=
  Pipeline.withArrays spec1 c (B2 m ρ c) fun w => (rowDat (E2 m ρ) c).arrAt w cfg1.N
theorem B3_arr (c : Dev nD) (w : Fin cfg1.W) :
    B3 m ρ c (Proc.devRef .tc (Pipeline.arrRef spec1 w)) = (rowDat (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem left1 (c : Dev nD) (w : Fin cfg1.W) : (rowDat (E2 m ρ) c).arrAt w cfg1.N = E3 m ρ c (Pipeline.arrRef spec1 w) :=
  (B3_arr m ρ c w).symm
theorem kept1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After the second host stretch: the contents at the return. -/
abbrev B4 : Dev nD → Valuation τ sig (Elt F) := fun c => StableHlo.after hostOps2 (B3 m ρ c)

/-! ## The proof data of both calls, and what rides beside the buffers -/

abbrev adm : (p : Fin 2) → (pcfgs (F := F) p).Adm := fun p => (cfgs p).toPCfg_adm

/-- Each call's proof data at the contents it is entered with. -/
def pdats : (p : Fin 2) → (c : Dev nD) → Dat τ (Elt F) Unit ℕ (UR sig nD τ) ℕ (Pipeline.pin (pcfgs (F := F)) adm p) c
  | ⟨0, _⟩ => fun c => sumDat (E0 m ρ) c
  | ⟨1, _⟩ => fun c => rowDat (E2 m ρ) c

abbrev noVar : Variants := Variants.none
abbrev noLev : GSem nD τ sig → Finset Unit := fun _ => ∅
abbrev lev0 : GSem nD τ sig → Unit → ℕ := fun _ _ => 0

/-- Beside the buffers: the generator register at some state, and the core owing nothing. -/
abbrev Beside (c : Dev nD) : sProp 𝕄 := iprop((∃ r, prngReg c r) ∗ ∃ W, owes (c : Thread nD τ) (0 : CellTallies nD τ sig Unit) W)

/-- A host stretch as a segment of the run, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem hostOps1_noAlloc : (hostOps1 : List (HloOp τ sig (Elt F))).Forall fun op => op.fresh = ∅ := by
  simp only [List.Forall]; repeat' constructor
theorem hostOps2_noAlloc : (hostOps2 : List (HloOp τ sig (Elt F))).Forall fun op => op.fresh = ∅ := by
  simp only [List.Forall]; repeat' constructor

/-- The last thread state, the `owes` apart. -/
abbrev AtReturn (c : Dev nD) : sProp 𝕄 := iprop(StableHlo.held (c : Thread nD τ) (Pipeline.ucRefs τ sig) (B4 m ρ c) ∗ ∃ r, prngReg c r)

/-! ## The calls as segments -/

set_option backward.isDefEq.respectTransparency.types false in
/-- The first call: entered from every unscoped buffer at `B0`, left at `B1`. Its arrays are split out of the unscoped
    buffers and put back at what the write-backs leave; the generator register goes into the invariant and comes back. -/
def sumSeg : Pipeline.RegionSeg (pcfgs (F := F)) adm (pdats m ρ) () defs₀ noVar noLev lev0 0 where
  win := launch0.win.to₀
  block_pos := launch0.block_pos
  stage_whole := launch0.stage_whole
  K := PEmpty
  osem k := k.elim
  ho := Pipeline.OwnSemFacts.none _
  hbody c := (sumObligation (E0 m ρ) c).loose
  hwaits := Pipeline.hwaits_of_owed_zero _ _ _ _ noLev lev0 0 fun _ _ => rfl
  pre c := iprop(StableHlo.held (c : Thread nD τ) (Pipeline.ucRefs τ sig) (B0 m ρ c) ∗ Beside c)
  post c := iprop(StableHlo.held (c : Thread nD τ) (Pipeline.ucRefs τ sig) (B1 m ρ c) ∗ Beside c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (sumInv_in (E0 m ρ) c)
    unfold Pipeline.ΦA
    iintro ⟨Hp, -, Hr⟩
    isplitl [Hr]; · iexact Hr
    iexact Hp
  hout c := by
    rw [Pipeline.ownSems0_none]
    refine BIBase.Entails.trans (sumInv_out (E0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `B2`, left at `B3`; its invariant is the class's. -/
def rowSeg : Pipeline.RegionSeg (pcfgs (F := F)) adm (pdats m ρ) () defs₀ noVar noLev lev0 1 where
  win := launch1.win.to₀
  block_pos := launch1.block_pos
  stage_whole := launch1.stage_whole
  K := PEmpty
  osem k := k.elim
  ho := Pipeline.OwnSemFacts.none _
  hbody c := (rowObligation (E2 m ρ) c).loose
  hwaits := Pipeline.hwaits_of_owed_zero _ _ _ _ noLev lev0 1 fun _ _ => rfl
  pre c := iprop(StableHlo.held (c : Thread nD τ) (Pipeline.ucRefs τ sig) (B2 m ρ c) ∗ Beside c)
  post c := iprop(StableHlo.held (c : Thread nD τ) (Pipeline.ucRefs τ sig) (B3 m ρ c) ∗ Beside c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev items : List (Pipeline.Seg (pcfgs (F := F)) adm (pdats m ρ) () defs₀ noVar noLev lev0) :=
  [ .region (sumSeg m ρ),
    .host (hostSeg hostOps1 hostOps1_sub hostOps1_noAlloc (B1 m ρ)),
    .region (rowSeg m ρ),
    .host (hostSeg hostOps2 hostOps2_sub hostOps2_noAlloc (B3 m ρ)) ]

theorem main_items (c : Dev nD) : main (F := F) c = Pipeline.Seg.run (items m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    every final state holds every unscoped buffer of every core at `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ noVar noLev lev0 m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c)) (Tₙ := AtReturn m ρ)
    (hch := ⟨fun _ => .rfl, fun _ => .rfl, fun _ => .rfl, fun _ => .rfl, fun c =>
      (show iprop(StableHlo.held (c : Thread nD τ) (Pipeline.ucRefs τ sig) (B4 m ρ c) ∗ Beside c)
          ⊢ iprop(AtReturn m ρ c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach noLev lev0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

end Cert.Kernel.Frame

end
-- ==== Proof.K.Result.lean ====
/-
  What the run leaves in the result buffer, and the frame. After the second host stretch the result is one fixed
  function (`glue`) of three numbers: the first call's output (the accumulated sum of squared differences), and the second
  call's two outputs (the quadratic-form sum and the log sum of the last rows). No item of the run writes an argument's
  buffer, so each argument ends as launched.
-/
import proofs.«103559_j20426864460201_1_alg».proof.Proof.K.Run
import proofs.«103559_j20426864460201_1_alg».proof.Proof.Gen.Kernel.Regions
import Idealize.ShloMosaic.Lib.StableHlo.Run

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Idealize.ShloMosaic.StableHlo

/-- The host operations after the calls, on three scalars `s1 s2 s3`:
      ((-(-1/2 · ((s1 + s2) + 4096 · log 2π))) / 4096 / 2048 + 1/2 · (s3 / 2^23)) / 2048,
    every constant the printed word, every operation the host's. -/
def glue (s1 s2 s3 : (⟨S_, .f32⟩ : BufTy).Contents (Elt F)) : (⟨S_, .f32⟩ : BufTy).Contents (Elt F) :=
  Host.divf (addf (Host.divf (Host.divf (Host.negf (mulf (constant (F := F) S_ .f32 0xBF000000#32) (addf (addf s1 s2) (id (mulf (constant (F := F) S_ .f32 0x45800000#32) (Host.log (constant (F := F) S_ .f32 0x40C90FDB#32))))))) (constant (F := F) S_ .f32 0x45800000#32)) (constant (F := F) S_ .f32 0x45000000#32)) (mulf (constant (F := F) S_ .f32 0x3F000000#32) (Host.divf s3 (constant (F := F) S_ .f32 0x4B000000#32)))) (constant (F := F) S_ .f32 0x45000000#32)

variable (m : (ℓ : Loc nD τ sig) → Buf (Elt F) ℓ) (ρ : Dev nD → PrngReg)

/-- A host stretch leaves the buffers it does not write as they were. -/
theorem B2_of (c : Dev nD) (r : Ref sig .tc) (h : r ∉ hostOps1_W) : B2 m ρ c r = B1 m ρ c r :=
  StableHlo.after_of_writes_sub hostOps1 _ hostOps1_writes h
theorem B4_of (c : Dev nD) (r : Ref sig .tc) (h : r ∉ hostOps2_W) : B4 m ρ c r = B3 m ρ c r :=
  StableHlo.after_of_writes_sub hostOps2 _ hostOps2_writes h

/-- The first stretch divides the first call's output by 2^23. -/
theorem B2_mean (c : Dev nD) :
    B2 m ρ c (Proc.devRef .tc main_v2)
      = Host.divf (shapeCast S_ (B1 m ρ c (Proc.devRef .tc main_v0)) shapeCasts_S1x1_S_) (constant (F := F) S_ .f32 0x4B000000#32) := by
  show StableHlo.after hostOps1 (B1 m ρ c) (Proc.devRef .tc main_v2) = _
  generalize B1 m ρ c = W
  after_results
  rfl

/-- The result buffer at the return. -/
theorem B4_result (c : Dev nD) :
    B4 m ρ c (Proc.devRef .tc main_v17)
      = glue (shapeCast S_ (B3 m ρ c (Proc.devRef .tc main_v3_0)) shapeCasts_S1x1_S_)
          (shapeCast S_ (B3 m ρ c (Proc.devRef .tc main_v3_1)) shapeCasts_S1x1_S_)
          (shapeCast S_ (B1 m ρ c (Proc.devRef .tc main_v0)) shapeCasts_S1x1_S_) := by
  have e2 : B3 m ρ c (Proc.devRef .tc main_v2)
      = Host.divf (shapeCast S_ (B1 m ρ c (Proc.devRef .tc main_v0)) shapeCasts_S1x1_S_) (constant (F := F) S_ .f32 0x4B000000#32) :=
    (B3_of_ne m ρ c main_v2 (by decide)).trans (B2_mean m ρ c)
  unfold glue
  rw [← e2]
  show StableHlo.after hostOps2 (B3 m ρ c) (Proc.devRef .tc main_v17) = _
  generalize B3 m ρ c = W
  after_results
  rfl

/-! ## The arguments end as launched -/

theorem B4_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of m ρ c main_arg0 (by decide)
    _ = B2 m ρ c (Proc.devRef .tc main_arg0) := (B3_arr m ρ c 0).trans (((rowDat (E2 m ρ) c).arrAt_in 0 rfl _).trans (rowDat_A (E2 m ρ) c 0))
    _ = B1 m ρ c (Proc.devRef .tc main_arg0) := B2_of m ρ c main_arg0 (by decide)
    _ = B0 m ρ c (Proc.devRef .tc main_arg0) := B1_of_ne m ρ c main_arg0 (by decide)
    _ = m ((c : Thread nD τ).loc main_arg0) := rfl
theorem B4_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of m ρ c main_arg1 (by decide)
    _ = B2 m ρ c (Proc.devRef .tc main_arg1) := (B3_arr m ρ c 1).trans (((rowDat (E2 m ρ) c).arrAt_in 1 rfl _).trans (rowDat_A (E2 m ρ) c 1))
    _ = B1 m ρ c (Proc.devRef .tc main_arg1) := B2_of m ρ c main_arg1 (by decide)
    _ = B0 m ρ c (Proc.devRef .tc main_arg1) := B1_of_ne m ρ c main_arg1 (by decide)
    _ = m ((c : Thread nD τ).loc main_arg1) := rfl
theorem B4_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of m ρ c main_arg2 (by decide)
    _ = B2 m ρ c (Proc.devRef .tc main_arg2) := (B3_arr m ρ c 2).trans (((rowDat (E2 m ρ) c).arrAt_in 2 rfl _).trans (rowDat_A (E2 m ρ) c 2))
    _ = B1 m ρ c (Proc.devRef .tc main_arg2) := B2_of m ρ c main_arg2 (by decide)
    _ = B0 m ρ c (Proc.devRef .tc main_arg2) := B1_of_ne m ρ c main_arg2 (by decide)
    _ = m ((c : Thread nD τ).loc main_arg2) := rfl
theorem B4_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of m ρ c main_arg3 (by decide)
    _ = B2 m ρ c (Proc.devRef .tc main_arg3) := B3_of_ne m ρ c main_arg3 (by decide)
    _ = B1 m ρ c (Proc.devRef .tc main_arg3) := B2_of m ρ c main_arg3 (by decide)
    _ = B0 m ρ c (Proc.devRef .tc main_arg3) := (B1_arr m ρ c 0).trans (((sumDat (E0 m ρ) c).arrAt_in 0 rfl _).trans (sumDat_A (E0 m ρ) c 0))
    _ = m ((c : Thread nD τ).loc main_arg3) := rfl
theorem B4_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of m ρ c main_arg4 (by decide)
    _ = B2 m ρ c (Proc.devRef .tc main_arg4) := B3_of_ne m ρ c main_arg4 (by decide)
    _ = B1 m ρ c (Proc.devRef .tc main_arg4) := B2_of m ρ c main_arg4 (by decide)
    _ = B0 m ρ c (Proc.devRef .tc main_arg4) := (B1_arr m ρ c 1).trans (((sumDat (E0 m ρ) c).arrAt_in 1 rfl _).trans (sumDat_A (E0 m ρ) c 1))
    _ = m ((c : Thread nD τ).loc main_arg4) := rfl

/-- THE FRAME, at any `F`: every weakly fair execution of @main terminates, nothing faulting, and every argument's buffer
    ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B4_arg0 m ρ c),
     (h c _ (mem_uc main_arg1 (by decide))).trans (B4_arg1 m ρ c),
     (h c _ (mem_uc main_arg2 (by decide))).trans (B4_arg2 m ρ c),
     (h c _ (mem_uc main_arg3 (by decide))).trans (B4_arg3 m ρ c),
     (h c _ (mem_uc main_arg4 (by decide))).trans (B4_arg4 m ρ c)⟩) (run_all m ρ)

end Cert.Kernel.Frame

end
-- ==== Proof.KI.SumCall.lean ====
/-
  The first pallas_call: eight grid points, point t staging rows 256·t … 256·t+255 of arguments 3 and 4 (windows 0
  and 1); a one-element scratch accumulator carried from point to point; a one-element output window (window 2) written
  back after the last point only. At the first point the accumulator is zeroed; at every point it receives
      (its contents) + (sum over the block of (y - μ)²);
  at the last point its new contents are copied to the output window. So after point n the accumulator holds the sums
  of blocks 0 … n added onto zero, one block at a time — `accAfter` below, a recursion on the point.
  Everything is stated at the buffer contents `V` the call is entered with.
-/
import proofs.«103559_j20426864460201_1_alg».proof.Proof.Gen.KernelIdeal.Launch
import proofs.«103559_j20426864460201_1_alg».proof.Proof.Gen.KernelIdeal.Skeleton
import proofs.«103559_j20426864460201_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The zero offsets of a whole-buffer rectangle, however spelt. -/
theorem off2_zero : (![0, 0] : Fin 2 → Nat) = fun _ => 0 := by
  funext a; fin_cases a <;> rfl

/-- The first conditional of the body: taken at the first grid point only (the accumulator is zeroed there). -/
abbrev firstCond (i : grid0.Coords) : Prop :=
  (Scalar.cmpi .ne (Scalar.extui (Scalar.cmpi .eq (BitVec.ofNat 32 (i 0).val) 0#32)) 0#32) = 1#1
/-- The second conditional: taken at the last grid point only (the accumulator is copied to the output window there). -/
abbrev lastCond (i : grid0.Coords) : Prop := k0_cond2 i = 1#1

theorem firstCond_iff : ∀ t : Fin cfg0.N, firstCond (grid0.coords t) ↔ t.val = 0 :=
  (by decide +kernel : ∀ t : Fin grid0.N, firstCond (grid0.coords t) ↔ t.val = 0)
theorem lastCond_iff : ∀ t : Fin cfg0.N, lastCond (grid0.coords t) ↔ t.val = 7 :=
  (by decide +kernel : ∀ t : Fin grid0.N, lastCond (grid0.coords t) ↔ t.val = 7)

/-- One store of the whole one-element buffer, last, covers it. -/
theorem cell_covers {p : Vec F S1x1 .f32} {Ls : List (View.Piece (Elt F) S1x1 .f32)} (y : S1x1.Idx) :
    ∃ pc ∈ ((⟨Rect.unit (s := S1x1) ![0, 0] S1x1.size inb_S1x1_S1x1_0_0, p⟩ : View.Piece (Elt F) S1x1 .f32) :: Ls), y ∈ pc.1.set :=
  ⟨_, List.mem_cons_self, View.mem_set_unit_zero off2_zero inb_S1x1_S1x1_0_0 y⟩

set_option maxHeartbeats 2000000 in
/-- The body at the FIRST point: the accumulator, whatever it held, is zeroed and then receives the block's sum of
    squared differences; the output window's buffer is handed back as found. -/
theorem sumKernel_first (c : Dev nD) (E : Set ℕ) (i : grid0.Coords) (hA : firstCond i) (hB : ¬ lastCond i)
    (a1 : Memref sig .tc .vmem S256x4096 .f32) (h1 : a1.IsWhole) (a2 : Memref sig .tc .vmem S256x4096 .f32) (h2 : a2.IsWhole)
    (a3 : Memref sig .tc .vmem S1x1 .f32) (h3 : a3.IsWhole) (a4 : Memref sig .tc .vmem S1x1 .f32) (h4 : a4.IsWhole)
    (x0 x1 : Vec F S256x4096 .f32) (xo : Vec F S1x1 .f32) (K : PUnit → sProp 𝕄) :
    iprop(owns (c : Thread nD τ) a1 fullShare x0 ∗ owns (c : Thread nD τ) a2 fullShare x1 ∗ owns (c : Thread nD τ) a3 fullShare xo
        ∗ (∃ d, owns (c : Thread nD τ) a4 fullShare d)
        ∗ (iprop(owns (c : Thread nD τ) a1 fullShare x0 ∗ owns (c : Thread nD τ) a2 fullShare x1 ∗ owns (c : Thread nD τ) a3 fullShare xo
            ∗ owns (c : Thread nD τ) a4 fullShare (k0_pay2 x0 x1 (k0_pay1 (F := F)))) -∗ K ⟨⟩))
      ⊢ wp frame (wpE (defs₀ (F := F)) Variants.none c none) E (cc0__mse_sum_kernel i a1 h1 a2 h2 a3 h3 a4 h4) K := by
  simp only [cc0__mse_sum_kernel_eq_skeleton]; unfold cc0__mse_sum_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try sl_unfold_run_names
  refine (View.read_writes_eq_canon _ _ _ cell_covers).trans ?_
  refine (View.canon_cons_unit_zero off2_zero _ _ _).trans ?_
  simp only [View.readAt_eq_ld, View.ld_unit_zero (S := S256x4096) off2_zero, View.ld_unit_zero (S := S1x1) off2_zero,
    View.readCov_unit_zero (S := S1x1) _ off2_zero]

set_option maxHeartbeats 2000000 in
/-- The body at a MIDDLE point: the accumulator, at `xs`, receives the block's sum on top; the output window's buffer is
    handed back as found. -/
theorem sumKernel_mid (c : Dev nD) (E : Set ℕ) (i : grid0.Coords) (hA : ¬ firstCond i) (hB : ¬ lastCond i)
    (a1 : Memref sig .tc .vmem S256x4096 .f32) (h1 : a1.IsWhole) (a2 : Memref sig .tc .vmem S256x4096 .f32) (h2 : a2.IsWhole)
    (a3 : Memref sig .tc .vmem S1x1 .f32) (h3 : a3.IsWhole) (a4 : Memref sig .tc .vmem S1x1 .f32) (h4 : a4.IsWhole)
    (x0 x1 : Vec F S256x4096 .f32) (xo xs : Vec F S1x1 .f32) (K : PUnit → sProp 𝕄) :
    iprop(owns (c : Thread nD τ) a1 fullShare x0 ∗ owns (c : Thread nD τ) a2 fullShare x1 ∗ owns (c : Thread nD τ) a3 fullShare xo
        ∗ owns (c : Thread nD τ) a4 fullShare xs
        ∗ (iprop(owns (c : Thread nD τ) a1 fullShare x0 ∗ owns (c : Thread nD τ) a2 fullShare x1 ∗ owns (c : Thread nD τ) a3 fullShare xo
            ∗ owns (c : Thread nD τ) a4 fullShare (k0_pay2 x0 x1 xs)) -∗ K ⟨⟩))
      ⊢ wp frame (wpE (defs₀ (F := F)) Variants.none c none) E (cc0__mse_sum_kernel i a1 h1 a2 h2 a3 h3 a4 h4) K := by
  simp only [cc0__mse_sum_kernel_eq_skeleton]; unfold cc0__mse_sum_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try sl_unfold_run_names
  refine (View.read_writes_eq_canon _ _ _ cell_covers).trans ?_
  refine (View.canon_cons_unit_zero off2_zero _ _ _).trans ?_
  simp only [View.readAt_eq_ld, View.ld_unit_zero (S := S256x4096) off2_zero, View.ld_unit_zero (S := S1x1) off2_zero,
    View.readCov_unit_zero (S := S1x1) _ off2_zero]

set_option maxHeartbeats 2000000 in
/-- The body at the LAST point: as at a middle point, and the output window's buffer receives the accumulator's new contents. -/
theorem sumKernel_last (c : Dev nD) (E : Set ℕ) (i : grid0.Coords) (hA : ¬ firstCond i) (hB : lastCond i)
    (a1 : Memref sig .tc .vmem S256x4096 .f32) (h1 : a1.IsWhole) (a2 : Memref sig .tc .vmem S256x4096 .f32) (h2 : a2.IsWhole)
    (a3 : Memref sig .tc .vmem S1x1 .f32) (h3 : a3.IsWhole) (a4 : Memref sig .tc .vmem S1x1 .f32) (h4 : a4.IsWhole)
    (x0 x1 : Vec F S256x4096 .f32) (xs : Vec F S1x1 .f32) (K : PUnit → sProp 𝕄) :
    iprop(owns (c : Thread nD τ) a1 fullShare x0 ∗ owns (c : Thread nD τ) a2 fullShare x1 ∗ (∃ d, owns (c : Thread nD τ) a3 fullShare d)
        ∗ owns (c : Thread nD τ) a4 fullShare xs
        ∗ (iprop(owns (c : Thread nD τ) a1 fullShare x0 ∗ owns (c : Thread nD τ) a2 fullShare x1
            ∗ owns (c : Thread nD τ) a3 fullShare (k0_pay2 x0 x1 xs)
            ∗ owns (c : Thread nD τ) a4 fullShare (k0_pay2 x0 x1 xs)) -∗ K ⟨⟩))
      ⊢ wp frame (wpE (defs₀ (F := F)) Variants.none c none) E (cc0__mse_sum_kernel i a1 h1 a2 h2 a3 h3 a4 h4) K := by
  simp only [cc0__mse_sum_kernel_eq_skeleton]; unfold cc0__mse_sum_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_run_names
    refine (View.read_writes_eq_canon _ _ _ cell_covers).trans ?_
    refine (View.canon_cons_unit_zero off2_zero _ _ _).trans ?_
    simp only [View.readAt_eq_ld, View.ld_unit_zero (S := S256x4096) off2_zero, View.ld_unit_zero (S := S1x1) off2_zero,
      View.readCov_unit_zero (S := S1x1) _ off2_zero]
  iexists _; isplitr
  swap; · iexact H3
  ipureintro
  try sl_unfold_run_names
  refine (View.read_writes_eq_canon _ _ _ cell_covers).trans ?_
  refine (View.canon_cons_unit_zero off2_zero _ _ _).trans ?_
  simp only [View.readAt_eq_ld, View.ld_unit_zero (S := S256x4096) off2_zero, View.ld_unit_zero (S := S1x1) off2_zero,
    View.readCov_unit_zero (S := S1x1) _ off2_zero]

/-! ## The blocks, and the accumulator point by point -/

variable (V : (c : Dev nD) → (b : Ref sig .tc) → Buf (Elt F) ((c : Thread nD τ).loc b))

/-- The block of window `w` at point `t`, read off the window's array as the call finds it. -/
def sumBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the accumulator holds after the body at position `n`: block `n`'s sum added onto what position `n - 1` left,
    onto the zero at the first position. -/
def accAfter (c : Dev nD) : (n : ℕ) → n < cfg0.N → Vec F S1x1 .f32
  | 0, hn => k0_pay2 (sumBlk V c 0 ⟨0, hn⟩) (sumBlk V c 1 ⟨0, hn⟩) (k0_pay1 (F := F))
  | n + 1, hn => k0_pay2 (sumBlk V c 0 ⟨n + 1, hn⟩) (sumBlk V c 1 ⟨n + 1, hn⟩) (accAfter c n (Nat.lt_of_succ_lt hn))

theorem accAfter_first (c : Dev nD) (t : Fin cfg0.N) (h : t.val = 0) :
    accAfter V c t.val t.isLt = k0_pay2 (sumBlk V c 0 t) (sumBlk V c 1 t) (k0_pay1 (F := F)) := by
  obtain ⟨n, hn⟩ := t
  cases n with
  | zero => rfl
  | succ n => exact absurd h (Nat.succ_ne_zero n)

theorem accAfter_later (c : Dev nD) (t : Fin cfg0.N) (h : t.val ≠ 0) :
    accAfter V c t.val t.isLt
      = k0_pay2 (sumBlk V c 0 t) (sumBlk V c 1 t) (accAfter V c (t.val - 1) (Nat.lt_of_le_of_lt (Nat.sub_le _ _) t.isLt)) := by
  obtain ⟨n, hn⟩ := t
  cases n with
  | zero => exact absurd rfl h
  | succ n => rfl

/-! ## The invariant: the accumulator's contents are carried -/

/-- The accumulator: the call's scratch operand, a whole scoped buffer. -/
abbrev accRef : Memref sig .tc .vmem S1x1 .f32 := Memref.whole cc0_scratch0

/-- The core's other scoped buffers that this call does not stage (the second call's staging buffers), at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f))

/-- What the launch hands the call — every scoped buffer it does not stage at some contents, and the generator
    register — with the accumulator singled out. -/
theorem classInv_eq (c : Dev nD) :
    (Pipeline.ΦA spec0 c : sProp 𝕄)
      = iprop(((∃ d, owns (c : Thread nD τ) accRef fullShare d) ∗ otherScoped c) ∗ (∃ r, prngReg c r)) := by
  unfold Pipeline.ΦA otherScoped; rw [scopedRest0_eq]; simp only [accRef, owns_whole]; try rfl

/-- The invariant before position `n`: before the first point the accumulator holds anything; afterwards what the
    point before left. -/
def sumInv (c : Dev nD) : (n : ℕ) → n ≤ cfg0.N → sProp 𝕄
  | 0, _ => Pipeline.ΦA spec0 c
  | n + 1, hn => iprop((owns (c : Thread nD τ) accRef fullShare (accAfter V c n hn) ∗ otherScoped c) ∗ (∃ r, prngReg c r))

theorem sumInv_zero (c : Dev nD) (n : ℕ) (h : n ≤ cfg0.N) (hz : n = 0) : sumInv V c n h = Pipeline.ΦA spec0 c := by
  subst hz; rfl

theorem sumInv_succ (c : Dev nD) (n : ℕ) (hn : n < cfg0.N) :
    sumInv V c (n + 1) hn = iprop((owns (c : Thread nD τ) accRef fullShare (accAfter V c n hn) ∗ otherScoped c) ∗ (∃ r, prngReg c r)) := rfl

theorem sumInv_pos (c : Dev nD) (n : ℕ) (h : n ≤ cfg0.N) (hz : n ≠ 0) :
    sumInv V c n h = iprop((owns (c : Thread nD τ) accRef fullShare (accAfter V c (n - 1) (by omega)) ∗ otherScoped c) ∗ (∃ r, prngReg c r)) := by
  cases n with
  | zero => exact absurd rfl hz
  | succ n => rfl

/-! ## The proof data -/

/-- The proof data of the call: its arrays as found; each input's buffer left at its block; the output window's buffer,
    where the body stores into it, at the accumulator's contents after that point; the invariant above. -/
def sumDat (c : Dev nD) : Dat τ (Elt F) Unit ℕ (UR sig nD τ) ℕ cfg0 c where
  A w := V c (Pipeline.arrRef spec0 w)
  after w t := match w with
    | ⟨0, _⟩ => sumBlk V c 0 t
    | ⟨1, _⟩ => sumBlk V c 1 t
    | ⟨2, _⟩ => accAfter V c t.val t.isLt
  Φ t := sumInv V c t.val (Nat.le_of_lt_succ t.isLt)
  q _ := fullShare
  owed _ := 0

theorem sumDat_A (c : Dev nD) (w : Fin cfg0.W) : (sumDat V c).A w = V c (Pipeline.arrRef spec0 w) := by
  dsimp only [sumDat]
theorem sumDat_after0 (c : Dev nD) (t : Fin cfg0.N) : (sumDat V c).after 0 t = sumBlk V c 0 t := by dsimp only [sumDat]
theorem sumDat_after1 (c : Dev nD) (t : Fin cfg0.N) : (sumDat V c).after 1 t = sumBlk V c 1 t := by dsimp only [sumDat]
theorem sumDat_after2 (c : Dev nD) (t : Fin cfg0.N) : (sumDat V c).after 2 t = accAfter V c t.val t.isLt := by dsimp only [sumDat]

theorem sumDat_inv_castSucc (c : Dev nD) (t : Fin cfg0.N) :
    (sumDat V c).Φ t.castSucc = sumInv V c t.val (Nat.le_of_lt t.isLt) := by
  dsimp only [sumDat]; simp only [Fin.coe_castSucc]

/-- An input's staging buffer holds its block when the body runs, fetched at that point or not. -/
theorem sumDat_before0 (c : Dev nD) (t : Fin cfg0.N) (d) : (sumDat V c).before 0 t d = sumBlk V c 0 t :=
  ((sumDat V c).before_in_eq_fetched 0 rfl (fun _ => rfl) (fun _ _ _ => rfl)
    (fun t => by rw [sumDat_after0]; unfold Dat.blockOf sumBlk; rw [sumDat_A]; try rfl) t d).trans
    (by unfold Dat.fetched Dat.blockOf sumBlk; rw [sumDat_A]; try rfl)
theorem sumDat_before1 (c : Dev nD) (t : Fin cfg0.N) (d) : (sumDat V c).before 1 t d = sumBlk V c 1 t :=
  ((sumDat V c).before_in_eq_fetched 1 rfl (fun _ => rfl) (fun _ _ _ => rfl)
    (fun t => by rw [sumDat_after1]; unfold Dat.blockOf sumBlk; rw [sumDat_A]; try rfl) t d).trans
    (by unfold Dat.fetched Dat.blockOf sumBlk; rw [sumDat_A]; try rfl)

/-! ## Where the windows are live -/

theorem live0 : ∀ t : Fin cfg0.N, cfg0.idle 0 (grid0.coords t) = false :=
  (by decide +kernel : ∀ t : Fin grid0.N, cfg0.idle 0 (grid0.coords t) = false)
theorem live1 : ∀ t : Fin cfg0.N, cfg0.idle 1 (grid0.coords t) = false :=
  (by decide +kernel : ∀ t : Fin grid0.N, cfg0.idle 1 (grid0.coords t) = false)
/-- Before the last point the output window is idle (the body stores nothing into it) and is not written back. -/
theorem idle2 : ∀ t : Fin cfg0.N, t.val ≠ 7 → cfg0.idle 2 (grid0.coords t) = true :=
  (by decide +kernel : ∀ t : Fin grid0.N, t.val ≠ 7 → cfg0.idle 2 (grid0.coords t) = true)
theorem noFlush2 : ∀ t : Fin cfg0.N, t.val ≠ 7 → (cfg0.win 2).flush t = false :=
  (by decide +kernel : ∀ t : Fin grid0.N, t.val ≠ 7 → (cfg0.win 2).flush t = false)
theorem live2 : ∀ t : Fin cfg0.N, t.val = 7 → cfg0.idle 2 (grid0.coords t) = false :=
  (by decide +kernel : ∀ t : Fin grid0.N, t.val = 7 → cfg0.idle 2 (grid0.coords t) = false)

/-! ## The body obligation -/

/-- What the body is called with at point `t`, the windows one by one, -/
def sumPre (c : Dev nD) (t : Fin cfg0.N) : sProp 𝕄 :=
  iprop((sumDat V c).Φ t.castSucc ∗ (sumDat V c).owesAt () t.castSucc
    ∗ (∃ d, owns (c : Thread nD τ) (st0_0 t) fullShare ((sumDat V c).before 0 t d))
    ∗ (∃ d, owns (c : Thread nD τ) (st0_1 t) fullShare ((sumDat V c).before 1 t d))
    ∗ (∃ d, owns (c : Thread nD τ) (st0_2 t) fullShare ((sumDat V c).before 2 t d)))

/-- and what it returns. -/
def sumPost (c : Dev nD) (t : Fin cfg0.N) : sProp 𝕄 :=
  iprop((sumDat V c).Φ t.succ ∗ (sumDat V c).owesAt () t.succ
    ∗ (sumDat V c).leavesExact 0 t
    ∗ (sumDat V c).leavesExact 1 t
    ∗ (sumDat V c).leavesExact 2 t)

set_option maxHeartbeats 4000000 in
/-- The body at any point, by the point's position: first, middle, last. The invariant hands the body the accumulator
    at what the point before left (at anything, at the first point) and takes it back at this point's contents. -/
theorem sumBody (c : Dev nD) (t : Fin cfg0.N) :
    sumPre V c t ⊢ wp frame (wpE (defs₀ (F := F)) Variants.none c none) Set.univ (bodyAt0 t) (fun _ => sumPost V c t) := by
  unfold sumPre sumPost bodyAt0
  simp only [sumDat_before0, sumDat_before1]
  rw [show (sumDat V c).owesAt () t.succ = (sumDat V c).owesAt () t.castSucc from rfl]
  rw [show (sumDat V c).Φ t.succ = sumInv V c (t.val + 1) t.isLt from rfl, sumInv_succ]
  rw [show (sumDat V c).leavesExact 0 t = owns (c : Thread nD τ) (st0_0 t) fullShare ((sumDat V c).after 0 t) from by
    unfold Dat.leavesExact; rw [live0 t], sumDat_after0]
  rw [show (sumDat V c).leavesExact 1 t = owns (c : Thread nD τ) (st0_1 t) fullShare ((sumDat V c).after 1 t) from by
    unfold Dat.leavesExact; rw [live1 t], sumDat_after1]
  rw [sumDat_inv_castSucc]
  have hN : t.val < 8 := lt_of_lt_of_eq t.isLt (show cfg0.N = 8 from N_0)
  by_cases h0 : t.val = 0
  · have hA : firstCond (grid0.coords t) := (firstCond_iff t).mpr h0
    have hB : ¬ lastCond (grid0.coords t) := fun h => by have := (lastCond_iff t).mp h; omega
    rw [Dat.leavesExact_idle (sumDat V c) 2 t (idle2 t (by omega)) (noFlush2 t (by omega))]
    rw [accAfter_first V c t h0, sumInv_zero V c _ _ h0, classInv_eq]
    iintro ⟨⟨⟨HS, Hoth⟩, Hg⟩, Ho, ⟨%d0, H0⟩, ⟨%d1, H1⟩, ⟨%d2, H2⟩⟩
    iapply (sumKernel_first c Set.univ (grid0.coords t) hA hB _ _ _ _ _ _ _ _ (sumBlk V c 0 t) (sumBlk V c 1 t) _ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hA : ¬ firstCond (grid0.coords t) := fun h => h0 ((firstCond_iff t).mp h)
    rw [accAfter_later V c t h0, sumInv_pos V c _ _ h0]
    by_cases h7 : t.val = 7
    · have hB : lastCond (grid0.coords t) := (lastCond_iff t).mpr h7
      rw [show (sumDat V c).leavesExact 2 t = owns (c : Thread nD τ) (st0_2 t) fullShare ((sumDat V c).after 2 t) from by
        unfold Dat.leavesExact; rw [live2 t h7], sumDat_after2, accAfter_later V c t h0]
      iintro ⟨⟨⟨HS, Hoth⟩, Hg⟩, Ho, ⟨%d0, H0⟩, ⟨%d1, H1⟩, ⟨%d2, H2⟩⟩
      iapply (sumKernel_last c Set.univ (grid0.coords t) hA hB _ _ _ _ _ _ _ _ (sumBlk V c 0 t) (sumBlk V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hB : ¬ lastCond (grid0.coords t) := fun h => h7 ((lastCond_iff t).mp h)
      rw [Dat.leavesExact_idle (sumDat V c) 2 t (idle2 t h7) (noFlush2 t h7)]
      iintro ⟨⟨⟨HS, Hoth⟩, Hg⟩, Ho, ⟨%d0, H0⟩, ⟨%d1, H1⟩, ⟨%d2, H2⟩⟩
      iapply (sumKernel_mid c Set.univ (grid0.coords t) hA hB _ _ _ _ _ _ _ _ (sumBlk V c 0 t) (sumBlk V c 1 t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation for the call. -/
theorem sumObligation (c : Dev nD) : BodyObligation (sumDat (F := F) V c) (defs₀ (F := F)) Variants.none () Set.univ := fun t => by
  rw [bigSep_W0, bigSep_W0]
  exact sumBody V c t

/-- What the launch hands the call is the invariant before the first point. -/
theorem sumInv_in (c : Dev nD) : Pipeline.ΦA spec0 c ⊢ (sumDat V c).Φ 0 := by
  rw [show (sumDat V c).Φ 0 = sumInv V c 0 (Nat.zero_le _) from rfl, sumInv_zero V c 0 _ rfl]
  try exact Idealize.SL.BI.Entails.refl _

/-- After the last point the invariant gives that back: the accumulator's contents are forgotten. -/
theorem sumInv_out (c : Dev nD) : (sumDat V c).Φ (Fin.last cfg0.N) ⊢ Pipeline.ΦA spec0 c := by
  rw [show (sumDat V c).Φ (Fin.last cfg0.N) = sumInv V c (Fin.last cfg0.N).val (Nat.le_of_lt_succ (Fin.last cfg0.N).isLt) from rfl,
    sumInv_pos V c _ _ (by rw [Fin.val_last]; have : cfg0.N = 8 := N_0; omega), classInv_eq]
  iintro ⟨⟨HS, Hoth⟩, Hg⟩
  isplitl [HS Hoth]
  · isplitl [HS]; · iexists _; iexact HS
    iexact Hoth
  iexact Hg

end Cert.KernelIdeal.Frame

end
-- ==== Proof.KI.RowCall.lean ====
/-
  The second pallas_call: one grid point; three input windows (the 8-row block holding the last row of each of the
  first three arguments) and two one-element output windows. Row 7 of each block is loaded, and the body stores
    window 3 := sum over the row of (x - m)^2 / v        window 4 := sum over the row of log v
  (m, v, x the rows of arguments 0, 1, 2). Everything here is stated at the buffer contents `V` the call is
  entered with, so that it can be placed anywhere in the run.
-/
import proofs.«103559_j20426864460201_1_alg».proof.Proof.Gen.KernelIdeal.Launch
import proofs.«103559_j20426864460201_1_alg».proof.Proof.Gen.KernelIdeal.Skeleton
import proofs.«103559_j20426864460201_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at the call's grid point, read off the window's array as the call finds it. -/
def rowBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Row 7 of an 8-row block: the rectangle all three loads use. -/
abbrev lastRow : Rect S8x4096 := Rect.unit (s := S8x4096) ![7, 0] S1x4096.size inb_S8x4096_S1x4096_7_0
/-- The one element of a one-element buffer: the rectangle both stores use. -/
abbrev cell : Rect S1x1 := Rect.unit (s := S1x1) ![0, 0] S1x1.size inb_S1x1_S1x1_0_0

/-- What the body leaves in window 3: the quadratic-form sum of the last rows. -/
def quadOut (x0 x1 x2 : Vec F S8x4096 .f32) : Vec F S1x1 .f32 :=
  View.canon [⟨cell, k1_pay1 (View.ld x0 lastRow) (View.ld x1 lastRow) (View.ld x2 lastRow)⟩]
/-- What the body leaves in window 4: the sum of the logarithms of the variance row. -/
def logOut (x1 : Vec F S8x4096 .f32) : Vec F S1x1 .f32 :=
  View.canon [⟨cell, k1_pay2 (View.ld x1 lastRow)⟩]

/-- One store of the whole one-element buffer covers it. -/
theorem cell_cover (p : Vec F S1x1 .f32) (y : S1x1.Idx) :
    ∃ pc ∈ ([⟨cell, p⟩] : List (View.Piece (Elt F) S1x1 .f32)), y ∈ pc.1.set :=
  View.cover_of_tiled [⟨cell, p⟩] S1x1.size (by rfl) y

set_option maxHeartbeats 1000000 in
/-- The body on whole staging buffers: the inputs are read and left as they were, each output ends at its sum. -/
theorem rowKernel (c : Dev nD) (E : Set ℕ) (i : grid1.Coords)
    (a1 : Memref sig .tc .vmem S8x4096 .f32) (h1 : a1.IsWhole) (a2 : Memref sig .tc .vmem S8x4096 .f32) (h2 : a2.IsWhole)
    (a3 : Memref sig .tc .vmem S8x4096 .f32) (h3 : a3.IsWhole) (a4 : Memref sig .tc .vmem S1x1 .f32) (h4 : a4.IsWhole)
    (a5 : Memref sig .tc .vmem S1x1 .f32) (h5 : a5.IsWhole)
    (x0 x1 x2 : Vec F S8x4096 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare (quadOut x0 x1 x2) ∗ owns (c : Thread nD τ) a5 fullShare (logOut x1)) -∗ K ⟨⟩))
      ⊢ wp frame (wpE (defs₀ (F := F)) Variants.none c none) E (cc1__lastrow_kernel i a1 h1 a2 h2 a3 h3 a4 h4 a5 h5) K := by
  simp only [cc1__lastrow_kernel_eq_skeleton]; unfold cc1__lastrow_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cell_cover _)
  iexists _; isplitr
  swap; · iexact H4
  ipureintro
  exact View.read_writes_eq_canon _ _ _ (cell_cover _)

/-- The proof data of the call: its arrays as found; each input's buffer left at its block, each output's at its sum;
    the invariant is the scoped buffers the call does not stage and the generator register, untouched. -/
def rowDat (c : Dev nD) : Dat τ (Elt F) Unit ℕ (UR sig nD τ) ℕ cfg1 c where
  A w := V c (Pipeline.arrRef spec1 w)
  after w t := match w with
    | ⟨0, _⟩ => rowBlk V c 0 t
    | ⟨1, _⟩ => rowBlk V c 1 t
    | ⟨2, _⟩ => rowBlk V c 2 t
    | ⟨3, _⟩ => quadOut (rowBlk V c 0 t) (rowBlk V c 1 t) (rowBlk V c 2 t)
    | ⟨4, _⟩ => logOut (rowBlk V c 1 t)
  Φ _ := Pipeline.ΦA spec1 c
  q _ := fullShare
  owed _ := 0

theorem rowDat_A (c : Dev nD) (w : Fin cfg1.W) : (rowDat V c).A w = V c (Pipeline.arrRef spec1 w) := by
  dsimp only [rowDat]
theorem rowDat_after0 (c : Dev nD) (t : Fin cfg1.N) : (rowDat V c).after 0 t = rowBlk V c 0 t := by dsimp only [rowDat]
theorem rowDat_after1 (c : Dev nD) (t : Fin cfg1.N) : (rowDat V c).after 1 t = rowBlk V c 1 t := by dsimp only [rowDat]
theorem rowDat_after2 (c : Dev nD) (t : Fin cfg1.N) : (rowDat V c).after 2 t = rowBlk V c 2 t := by dsimp only [rowDat]
theorem rowDat_after3 (c : Dev nD) (t : Fin cfg1.N) :
    (rowDat V c).after 3 t = quadOut (rowBlk V c 0 t) (rowBlk V c 1 t) (rowBlk V c 2 t) := by dsimp only [rowDat]
theorem rowDat_after4 (c : Dev nD) (t : Fin cfg1.N) : (rowDat V c).after 4 t = logOut (rowBlk V c 1 t) := by dsimp only [rowDat]

/-- An input's staging buffer holds its block when the body runs. -/
theorem rowDat_before0 (c : Dev nD) (t : Fin cfg1.N) (d) : (rowDat V c).before 0 t d = rowBlk V c 0 t :=
  ((rowDat V c).before_in_eq_fetched 0 rfl (fun _ => rfl) (fun _ _ _ => rfl)
    (fun t => by rw [rowDat_after0]; unfold Dat.blockOf rowBlk; rw [rowDat_A]; try rfl) t d).trans
    (by unfold Dat.fetched Dat.blockOf rowBlk; rw [rowDat_A]; try rfl)
theorem rowDat_before1 (c : Dev nD) (t : Fin cfg1.N) (d) : (rowDat V c).before 1 t d = rowBlk V c 1 t :=
  ((rowDat V c).before_in_eq_fetched 1 rfl (fun _ => rfl) (fun _ _ _ => rfl)
    (fun t => by rw [rowDat_after1]; unfold Dat.blockOf rowBlk; rw [rowDat_A]; try rfl) t d).trans
    (by unfold Dat.fetched Dat.blockOf rowBlk; rw [rowDat_A]; try rfl)
theorem rowDat_before2 (c : Dev nD) (t : Fin cfg1.N) (d) : (rowDat V c).before 2 t d = rowBlk V c 2 t :=
  ((rowDat V c).before_in_eq_fetched 2 rfl (fun _ => rfl) (fun _ _ _ => rfl)
    (fun t => by rw [rowDat_after2]; unfold Dat.blockOf rowBlk; rw [rowDat_A]; try rfl) t d).trans
    (by unfold Dat.fetched Dat.blockOf rowBlk; rw [rowDat_A]; try rfl)

/-- What the body is called with at the point, the windows one by one, -/
def rowPre (c : Dev nD) (t : Fin cfg1.N) : sProp 𝕄 :=
  iprop((rowDat V c).Φ t.castSucc ∗ (rowDat V c).owesAt () t.castSucc
    ∗ (∃ d, owns (c : Thread nD τ) (st1_0 t) fullShare ((rowDat V c).before 0 t d))
    ∗ (∃ d, owns (c : Thread nD τ) (st1_1 t) fullShare ((rowDat V c).before 1 t d))
    ∗ (∃ d, owns (c : Thread nD τ) (st1_2 t) fullShare ((rowDat V c).before 2 t d))
    ∗ (∃ d, owns (c : Thread nD τ) (st1_3 t) fullShare ((rowDat V c).before 3 t d))
    ∗ (∃ d, owns (c : Thread nD τ) (st1_4 t) fullShare ((rowDat V c).before 4 t d)))

/-- and what it returns. -/
def rowPost (c : Dev nD) (t : Fin cfg1.N) : sProp 𝕄 :=
  iprop((rowDat V c).Φ t.succ ∗ (rowDat V c).owesAt () t.succ
    ∗ owns (c : Thread nD τ) (st1_0 t) fullShare ((rowDat V c).after 0 t)
    ∗ owns (c : Thread nD τ) (st1_1 t) fullShare ((rowDat V c).after 1 t)
    ∗ owns (c : Thread nD τ) (st1_2 t) fullShare ((rowDat V c).after 2 t)
    ∗ owns (c : Thread nD τ) (st1_3 t) fullShare ((rowDat V c).after 3 t)
    ∗ owns (c : Thread nD τ) (st1_4 t) fullShare ((rowDat V c).after 4 t))

theorem rowBody (c : Dev nD) (t : Fin cfg1.N) :
    rowPre V c t ⊢ wp frame (wpE (defs₀ (F := F)) Variants.none c none) Set.univ (bodyAt1 t) (fun _ => rowPost V c t) := by
  unfold rowPre rowPost bodyAt1
  simp only [rowDat_before0, rowDat_before1, rowDat_before2]
  rw [show (rowDat V c).Φ t.succ = (rowDat V c).Φ t.castSucc from rfl,
    show (rowDat V c).owesAt () t.succ = (rowDat V c).owesAt () t.castSucc from rfl,
    rowDat_after0, rowDat_after1, rowDat_after2, rowDat_after3, rowDat_after4]
  iintro ⟨HΦ, Ho, ⟨%d0, H0⟩, ⟨%d1, H1⟩, ⟨%d2, H2⟩, ⟨%d3, H3⟩, ⟨%d4, H4⟩⟩
  iapply (rowKernel c Set.univ _ _ _ _ _ _ _ _ _ _ _ (rowBlk V c 0 t) (rowBlk V c 1 t) (rowBlk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the call. -/
theorem rowObligation (c : Dev nD) : BodyObligation (rowDat (F := F) V c) (defs₀ (F := F)) Variants.none () Set.univ := fun t => by
  rw [bigSep_W1, bigSep_W1]
  exact rowBody V c t

end Cert.KernelIdeal.Frame

end
-- ==== Proof.KI.Run.lean ====
/-
  The whole run of @main: the first pallas_call, three host operations, the second pallas_call, twenty-one host
  operations. Between two items a core holds every unscoped buffer at known contents — the launch memory, then what
  each call's write-backs leave in its arrays and what each host stretch computes, folded in order (`B0` … `B4`) —
  beside its generator register and the fact that it owes nothing. Every weakly fair execution terminates, and the
  final memory holds every unscoped buffer at the last fold `B4`: from this one statement both the frame (no
  argument's buffer is ever written) and the result's value are read.
-/
import proofs.«103559_j20426864460201_1_alg».proof.Proof.KI.SumCall
import proofs.«103559_j20426864460201_1_alg».proof.Proof.KI.RowCall

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev B0 : Dev nD → Valuation τ sig (Elt F) := fun c b => (s₀ m ρ).mem ((c : Dev nD), b)
/-- The same read at the TensorCore's references: what the first call is entered with. -/
abbrev E0 : (c : Dev nD) → (b : Ref sig .tc) → Buf (Elt F) ((c : Thread nD τ).loc b) := fun c b => B0 m ρ c b

/-- After the first call: its arrays at what its write-backs leave, every other buffer as before. -/
def B1 (c : Dev nD) : Valuation τ sig (Elt F) :=
  Pipeline.withArrays spec0 c (B0 m ρ c) fun w => (sumDat (E0 m ρ) c).arrAt w cfg0.N
theorem B1_arr (c : Dev nD) (w : Fin cfg0.W) :
    B1 m ρ c (Proc.devRef .tc (Pipeline.arrRef spec0 w)) = (sumDat (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem left0 (c : Dev nD) (w : Fin cfg0.W) : (sumDat (E0 m ρ) c).arrAt w cfg0.N = E1 m ρ c (Pipeline.arrRef spec0 w) :=
  (B1_arr m ρ c w).symm
theorem kept0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the first host stretch: what the second call is entered with. -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b

/-- After the second call. -/
def B3 (c : Dev nD) : Valuation τ sig (Elt F) :=
  Pipeline.withArrays spec1 c (B2 m ρ c) fun w => (rowDat (E2 m ρ) c).arrAt w cfg1.N
theorem B3_arr (c : Dev nD) (w : Fin cfg1.W) :
    B3 m ρ c (Proc.devRef .tc (Pipeline.arrRef spec1 w)) = (rowDat (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem left1 (c : Dev nD) (w : Fin cfg1.W) : (rowDat (E2 m ρ) c).arrAt w cfg1.N = E3 m ρ c (Pipeline.arrRef spec1 w) :=
  (B3_arr m ρ c w).symm
theorem kept1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After the second host stretch: the contents at the return. -/
abbrev B4 : Dev nD → Valuation τ sig (Elt F) := fun c => StableHlo.after hostOps2 (B3 m ρ c)

/-! ## The proof data of both calls, and what rides beside the buffers -/

abbrev adm : (p : Fin 2) → (pcfgs (F := F) p).Adm := fun p => (cfgs p).toPCfg_adm

/-- Each call's proof data at the contents it is entered with. -/
def pdats : (p : Fin 2) → (c : Dev nD) → Dat τ (Elt F) Unit ℕ (UR sig nD τ) ℕ (Pipeline.pin (pcfgs (F := F)) adm p) c
  | ⟨0, _⟩ => fun c => sumDat (E0 m ρ) c
  | ⟨1, _⟩ => fun c => rowDat (E2 m ρ) c

abbrev noVar : Variants := Variants.none
abbrev noLev : GSem nD τ sig → Finset Unit := fun _ => ∅
abbrev lev0 : GSem nD τ sig → Unit → ℕ := fun _ _ => 0

/-- Beside the buffers: the generator register at some state, and the core owing nothing. -/
abbrev Beside (c : Dev nD) : sProp 𝕄 := iprop((∃ r, prngReg c r) ∗ ∃ W, owes (c : Thread nD τ) (0 : CellTallies nD τ sig Unit) W)

/-- A host stretch as a segment of the run, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem hostOps1_noAlloc : (hostOps1 : List (HloOp τ sig (Elt F))).Forall fun op => op.fresh = ∅ := by
  simp only [List.Forall]; repeat' constructor
theorem hostOps2_noAlloc : (hostOps2 : List (HloOp τ sig (Elt F))).Forall fun op => op.fresh = ∅ := by
  simp only [List.Forall]; repeat' constructor

/-- The last thread state, the `owes` apart. -/
abbrev AtReturn (c : Dev nD) : sProp 𝕄 := iprop(StableHlo.held (c : Thread nD τ) (Pipeline.ucRefs τ sig) (B4 m ρ c) ∗ ∃ r, prngReg c r)

/-! ## The calls as segments -/

set_option backward.isDefEq.respectTransparency.types false in
/-- The first call: entered from every unscoped buffer at `B0`, left at `B1`. Its arrays are split out of the unscoped
    buffers and put back at what the write-backs leave; the generator register goes into the invariant and comes back. -/
def sumSeg : Pipeline.RegionSeg (pcfgs (F := F)) adm (pdats m ρ) () defs₀ noVar noLev lev0 0 where
  win := launch0.win.to₀
  block_pos := launch0.block_pos
  stage_whole := launch0.stage_whole
  K := PEmpty
  osem k := k.elim
  ho := Pipeline.OwnSemFacts.none _
  hbody c := (sumObligation (E0 m ρ) c).loose
  hwaits := Pipeline.hwaits_of_owed_zero _ _ _ _ noLev lev0 0 fun _ _ => rfl
  pre c := iprop(StableHlo.held (c : Thread nD τ) (Pipeline.ucRefs τ sig) (B0 m ρ c) ∗ Beside c)
  post c := iprop(StableHlo.held (c : Thread nD τ) (Pipeline.ucRefs τ sig) (B1 m ρ c) ∗ Beside c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (sumInv_in (E0 m ρ) c)
    unfold Pipeline.ΦA
    iintro ⟨Hp, -, Hr⟩
    isplitl [Hr]; · iexact Hr
    iexact Hp
  hout c := by
    rw [Pipeline.ownSems0_none]
    refine BIBase.Entails.trans (sumInv_out (E0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `B2`, left at `B3`; its invariant is the class's. -/
def rowSeg : Pipeline.RegionSeg (pcfgs (F := F)) adm (pdats m ρ) () defs₀ noVar noLev lev0 1 where
  win := launch1.win.to₀
  block_pos := launch1.block_pos
  stage_whole := launch1.stage_whole
  K := PEmpty
  osem k := k.elim
  ho := Pipeline.OwnSemFacts.none _
  hbody c := (rowObligation (E2 m ρ) c).loose
  hwaits := Pipeline.hwaits_of_owed_zero _ _ _ _ noLev lev0 1 fun _ _ => rfl
  pre c := iprop(StableHlo.held (c : Thread nD τ) (Pipeline.ucRefs τ sig) (B2 m ρ c) ∗ Beside c)
  post c := iprop(StableHlo.held (c : Thread nD τ) (Pipeline.ucRefs τ sig) (B3 m ρ c) ∗ Beside c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev items : List (Pipeline.Seg (pcfgs (F := F)) adm (pdats m ρ) () defs₀ noVar noLev lev0) :=
  [ .region (sumSeg m ρ),
    .host (hostSeg hostOps1 hostOps1_sub hostOps1_noAlloc (B1 m ρ)),
    .region (rowSeg m ρ),
    .host (hostSeg hostOps2 hostOps2_sub hostOps2_noAlloc (B3 m ρ)) ]

theorem main_items (c : Dev nD) : main (F := F) c = Pipeline.Seg.run (items m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    every final state holds every unscoped buffer of every core at `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ noVar noLev lev0 m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c)) (Tₙ := AtReturn m ρ)
    (hch := ⟨fun _ => .rfl, fun _ => .rfl, fun _ => .rfl, fun _ => .rfl, fun c =>
      (show iprop(StableHlo.held (c : Thread nD τ) (Pipeline.ucRefs τ sig) (B4 m ρ c) ∗ Beside c)
          ⊢ iprop(AtReturn m ρ c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach noLev lev0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

end Cert.KernelIdeal.Frame

end
-- ==== Proof.KI.Result.lean ====
/-
  What the run leaves in the result buffer, and the frame. After the second host stretch the result is one fixed
  function (`glue`) of three numbers: the first call's output (the accumulated sum of squared differences), and the second
  call's two outputs (the quadratic-form sum and the log sum of the last rows). No item of the run writes an argument's
  buffer, so each argument ends as launched.
-/
import proofs.«103559_j20426864460201_1_alg».proof.Proof.KI.Run
import proofs.«103559_j20426864460201_1_alg».proof.Proof.Gen.KernelIdeal.Regions
import Idealize.ShloMosaic.Lib.StableHlo.Run

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.StableHlo

/-- The host operations after the calls, on three scalars `s1 s2 s3`:
      ((-(-1/2 · ((s1 + s2) + 4096 · log 2π))) / 4096 / 2048 + 1/2 · (s3 / 2^23)) / 2048,
    every constant the printed word, every operation the host's. -/
def glue (s1 s2 s3 : (⟨S_, .f32⟩ : BufTy).Contents (Elt F)) : (⟨S_, .f32⟩ : BufTy).Contents (Elt F) :=
  Host.divf (addf (Host.divf (Host.divf (Host.negf (mulf (constant (F := F) S_ .f32 0xBF000000#32) (addf (addf s1 s2) (id (mulf (constant (F := F) S_ .f32 0x45800000#32) (Host.log (constant (F := F) S_ .f32 0x40C90FDB#32))))))) (constant (F := F) S_ .f32 0x45800000#32)) (constant (F := F) S_ .f32 0x45000000#32)) (mulf (constant (F := F) S_ .f32 0x3F000000#32) (Host.divf s3 (constant (F := F) S_ .f32 0x4B000000#32)))) (constant (F := F) S_ .f32 0x45000000#32)

variable (m : (ℓ : Loc nD τ sig) → Buf (Elt F) ℓ) (ρ : Dev nD → PrngReg)

/-- A host stretch leaves the buffers it does not write as they were. -/
theorem B2_of (c : Dev nD) (r : Ref sig .tc) (h : r ∉ hostOps1_W) : B2 m ρ c r = B1 m ρ c r :=
  StableHlo.after_of_writes_sub hostOps1 _ hostOps1_writes h
theorem B4_of (c : Dev nD) (r : Ref sig .tc) (h : r ∉ hostOps2_W) : B4 m ρ c r = B3 m ρ c r :=
  StableHlo.after_of_writes_sub hostOps2 _ hostOps2_writes h

/-- The first stretch divides the first call's output by 2^23. -/
theorem B2_mean (c : Dev nD) :
    B2 m ρ c (Proc.devRef .tc main_v2)
      = Host.divf (shapeCast S_ (B1 m ρ c (Proc.devRef .tc main_v0)) shapeCasts_S1x1_S_) (constant (F := F) S_ .f32 0x4B000000#32) := by
  show StableHlo.after hostOps1 (B1 m ρ c) (Proc.devRef .tc main_v2) = _
  generalize B1 m ρ c = W
  after_results
  rfl

/-- The result buffer at the return. -/
theorem B4_result (c : Dev nD) :
    B4 m ρ c (Proc.devRef .tc main_v17)
      = glue (shapeCast S_ (B3 m ρ c (Proc.devRef .tc main_v3_0)) shapeCasts_S1x1_S_)
          (shapeCast S_ (B3 m ρ c (Proc.devRef .tc main_v3_1)) shapeCasts_S1x1_S_)
          (shapeCast S_ (B1 m ρ c (Proc.devRef .tc main_v0)) shapeCasts_S1x1_S_) := by
  have e2 : B3 m ρ c (Proc.devRef .tc main_v2)
      = Host.divf (shapeCast S_ (B1 m ρ c (Proc.devRef .tc main_v0)) shapeCasts_S1x1_S_) (constant (F := F) S_ .f32 0x4B000000#32) :=
    (B3_of_ne m ρ c main_v2 (by decide)).trans (B2_mean m ρ c)
  unfold glue
  rw [← e2]
  show StableHlo.after hostOps2 (B3 m ρ c) (Proc.devRef .tc main_v17) = _
  generalize B3 m ρ c = W
  after_results
  rfl

/-! ## The arguments end as launched -/

theorem B4_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of m ρ c main_arg0 (by decide)
    _ = B2 m ρ c (Proc.devRef .tc main_arg0) := (B3_arr m ρ c 0).trans (((rowDat (E2 m ρ) c).arrAt_in 0 rfl _).trans (rowDat_A (E2 m ρ) c 0))
    _ = B1 m ρ c (Proc.devRef .tc main_arg0) := B2_of m ρ c main_arg0 (by decide)
    _ = B0 m ρ c (Proc.devRef .tc main_arg0) := B1_of_ne m ρ c main_arg0 (by decide)
    _ = m ((c : Thread nD τ).loc main_arg0) := rfl
theorem B4_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of m ρ c main_arg1 (by decide)
    _ = B2 m ρ c (Proc.devRef .tc main_arg1) := (B3_arr m ρ c 1).trans (((rowDat (E2 m ρ) c).arrAt_in 1 rfl _).trans (rowDat_A (E2 m ρ) c 1))
    _ = B1 m ρ c (Proc.devRef .tc main_arg1) := B2_of m ρ c main_arg1 (by decide)
    _ = B0 m ρ c (Proc.devRef .tc main_arg1) := B1_of_ne m ρ c main_arg1 (by decide)
    _ = m ((c : Thread nD τ).loc main_arg1) := rfl
theorem B4_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of m ρ c main_arg2 (by decide)
    _ = B2 m ρ c (Proc.devRef .tc main_arg2) := (B3_arr m ρ c 2).trans (((rowDat (E2 m ρ) c).arrAt_in 2 rfl _).trans (rowDat_A (E2 m ρ) c 2))
    _ = B1 m ρ c (Proc.devRef .tc main_arg2) := B2_of m ρ c main_arg2 (by decide)
    _ = B0 m ρ c (Proc.devRef .tc main_arg2) := B1_of_ne m ρ c main_arg2 (by decide)
    _ = m ((c : Thread nD τ).loc main_arg2) := rfl
theorem B4_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of m ρ c main_arg3 (by decide)
    _ = B2 m ρ c (Proc.devRef .tc main_arg3) := B3_of_ne m ρ c main_arg3 (by decide)
    _ = B1 m ρ c (Proc.devRef .tc main_arg3) := B2_of m ρ c main_arg3 (by decide)
    _ = B0 m ρ c (Proc.devRef .tc main_arg3) := (B1_arr m ρ c 0).trans (((sumDat (E0 m ρ) c).arrAt_in 0 rfl _).trans (sumDat_A (E0 m ρ) c 0))
    _ = m ((c : Thread nD τ).loc main_arg3) := rfl
theorem B4_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of m ρ c main_arg4 (by decide)
    _ = B2 m ρ c (Proc.devRef .tc main_arg4) := B3_of_ne m ρ c main_arg4 (by decide)
    _ = B1 m ρ c (Proc.devRef .tc main_arg4) := B2_of m ρ c main_arg4 (by decide)
    _ = B0 m ρ c (Proc.devRef .tc main_arg4) := (B1_arr m ρ c 1).trans (((sumDat (E0 m ρ) c).arrAt_in 1 rfl _).trans (sumDat_A (E0 m ρ) c 1))
    _ = m ((c : Thread nD τ).loc main_arg4) := rfl

/-- THE FRAME, at any `F`: every weakly fair execution of @main terminates, nothing faulting, and every argument's buffer
    ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B4_arg0 m ρ c),
     (h c _ (mem_uc main_arg1 (by decide))).trans (B4_arg1 m ρ c),
     (h c _ (mem_uc main_arg2 (by decide))).trans (B4_arg2 m ρ c),
     (h c _ (mem_uc main_arg3 (by decide))).trans (B4_arg3 m ρ c),
     (h c _ (mem_uc main_arg4 (by decide))).trans (B4_arg4 m ρ c)⟩) (run_all m ρ)

end Cert.KernelIdeal.Frame

end
-- ==== Proof.KI.Reads.lean ====
/-
  What the calls leave in their one-element output arrays, and each staged block as rows of an argument.
  A one-element array has one index, so the one block written back is the whole array. Point t of the first call
  stages rows 256·t … 256·t+255 of arguments 3 and 4; the second call stages rows 2040 … 2047 of arguments 0, 1, 2,
  and reads row 7 of each block, which is row 2047 of the argument.
-/
import proofs.«103559_j20426864460201_1_alg».proof.Proof.KI.Result
import Idealize.ShloMosaic.Lib.ValueIdx

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

/-- A one-element array has one index. -/
instance oneIdx : Subsingleton S1x1.Idx :=
  ⟨fun a b => funext fun d => by fin_cases d <;> exact Subsingleton.elim (α := Fin 1) _ _⟩

/-- Its index. -/
abbrev theIdx : S1x1.Idx := ix2 0 0

section Arrays

variable (V : (c : Dev nD) → (b : Ref sig .tc) → Buf (Elt F) ((c : Thread nD τ).loc b))

/-- After the second call its first output array holds the quadratic-form sum of the one point's blocks. -/
theorem rowDat_quad (c : Dev nD) :
    (rowDat V c).arrAt 3 cfg1.N = quadOut (rowBlk V c 0 t1_0) (rowBlk V c 1 t1_0) (rowBlk V c 2 t1_0) := by
  refine (rowDat V c).arrAt_eq_of_cover 3 _ (fun t _ => ?_) (fun i => ⟨t1_0, flush1_3 t1_0, ?_⟩)
  · obtain rfl := fin_N1 t
    funext y
    rw [View.read_apply]
    show (rowDat V c).after 3 t1_0 _ = _
    rw [rowDat_after3]
    exact congrArg _ (Subsingleton.elim (α := S1x1.Idx) _ _)
  · rw [Subsingleton.elim (α := S1x1.Idx) i (((cfg1.win 3).blk t1_0).view.emb theIdx)]
    exact View.emb_mem_set _ _

/-- Its second output array holds the log sum. -/
theorem rowDat_log (c : Dev nD) : (rowDat V c).arrAt 4 cfg1.N = logOut (rowBlk V c 1 t1_0) := by
  refine (rowDat V c).arrAt_eq_of_cover 4 _ (fun t _ => ?_) (fun i => ⟨t1_0, flush1_4 t1_0, ?_⟩)
  · obtain rfl := fin_N1 t
    funext y
    rw [View.read_apply]
    show (rowDat V c).after 4 t1_0 _ = _
    rw [rowDat_after4]
    exact congrArg _ (Subsingleton.elim (α := S1x1.Idx) _ _)
  · rw [Subsingleton.elim (α := S1x1.Idx) i (((cfg1.win 4).blk t1_0).view.emb theIdx)]
    exact View.emb_mem_set _ _

/-- After the first call its output array holds the accumulator's contents after the last point. -/
theorem sumDat_total (c : Dev nD) : (sumDat V c).arrAt 2 cfg0.N = accAfter V c t0_7.val t0_7.isLt := by
  refine (sumDat V c).arrAt_eq_of_cover 2 _ (fun t hf => ?_) (fun i => ⟨t0_7, (flush0_2 t0_7).mpr rfl, ?_⟩)
  · obtain rfl : t = t0_7 := Fin.ext (by
      have h := (flush0_2 t).mp hf
      have hN : t.val < 8 := lt_of_lt_of_eq t.isLt (show cfg0.N = 8 from N_0)
      show t.val = 7; omega)
    funext y
    rw [View.read_apply]
    show (sumDat V c).after 2 t0_7 _ = _
    rw [sumDat_after2]
    exact congrArg _ (Subsingleton.elim (α := S1x1.Idx) _ _)
  · rw [Subsingleton.elim (α := S1x1.Idx) i (((cfg0.win 2).blk t0_7).view.emb theIdx)]
    exact View.emb_mem_set _ _

end Arrays

variable (m : (ℓ : Loc nD τ sig) → Buf (Elt F) ℓ) (ρ : Dev nD → PrngReg)

theorem quad_buffer (c : Dev nD) :
    B3 m ρ c (Proc.devRef .tc main_v3_0)
      = quadOut (rowBlk (E2 m ρ) c 0 t1_0) (rowBlk (E2 m ρ) c 1 t1_0) (rowBlk (E2 m ρ) c 2 t1_0) :=
  (B3_arr m ρ c 3).trans (rowDat_quad (E2 m ρ) c)
theorem log_buffer (c : Dev nD) : B3 m ρ c (Proc.devRef .tc main_v3_1) = logOut (rowBlk (E2 m ρ) c 1 t1_0) :=
  (B3_arr m ρ c 4).trans (rowDat_log (E2 m ρ) c)
theorem total_buffer (c : Dev nD) : B1 m ρ c (Proc.devRef .tc main_v0) = accAfter (E0 m ρ) c t0_7.val t0_7.isLt :=
  (B1_arr m ρ c 2).trans (sumDat_total (E0 m ρ) c)

/-- What the second call is entered with at an argument it stages is the launch contents: nothing before it writes one. -/
theorem E2_arg (c : Dev nD) (r : Ref sig .tc) (h1 : r ∉ hostOps1_W) (h0 : ∀ w, Pipeline.arrRef spec0 w ≠ r) :
    E2 m ρ c r = m ((c : Thread nD τ).loc r) :=
  (B2_of m ρ c r h1).trans ((B1_of_ne m ρ c r h0).trans rfl)

/-- Row 7 of the block the second call stages of argument 0 is row 2047 of the argument. -/
theorem lastRow_read0 (c : Dev nD) (k : Fin 4096) :
    View.ld (rowBlk (E2 m ρ) c 0 t1_0 : Vec F S8x4096 .f32) lastRow (ix2 0 k)
      = (m ((c : Thread nD τ).loc main_arg0) : S2048x4096.Idx → Elt F .f32) (ix2 ⟨2047, by decide⟩ k) := by
  unfold rowBlk
  rw [show E2 m ρ c (Pipeline.arrRef spec1 0) = m ((c : Thread nD τ).loc main_arg0) from E2_arg m ρ c main_arg0 (by decide) (by decide)]
  show View.read (Elt F) ((cfg1.win 0).blk t1_0).view (m ((c : Thread nD τ).loc main_arg0)) (lastRow.idx (ix2 0 k)) = _
  rw [View.read_apply]
  refine congrArg (m ((c : Thread nD τ).loc main_arg0) : S2048x4096.Idx → Elt F .f32) ?_
  funext a; apply Fin.ext
  match a with
  | ⟨0, _⟩ => exact (by decide +kernel : win1_0.index t1_0 0 * 8 + 1 * (7 + 1 * 0) = 2047)
  | ⟨1, _⟩ =>
    show win1_0.index t1_0 1 * 4096 + 1 * (0 + 1 * k.val) = k.val
    rw [show win1_0.index t1_0 1 = 0 from by decide +kernel]; omega

/-- Row 7 of the block the second call stages of argument 1 is row 2047 of the argument. -/
theorem lastRow_read1 (c : Dev nD) (k : Fin 4096) :
    View.ld (rowBlk (E2 m ρ) c 1 t1_0 : Vec F S8x4096 .f32) lastRow (ix2 0 k)
      = (m ((c : Thread nD τ).loc main_arg1) : S2048x4096.Idx → Elt F .f32) (ix2 ⟨2047, by decide⟩ k) := by
  unfold rowBlk
  rw [show E2 m ρ c (Pipeline.arrRef spec1 1) = m ((c : Thread nD τ).loc main_arg1) from E2_arg m ρ c main_arg1 (by decide) (by decide)]
  show View.read (Elt F) ((cfg1.win 1).blk t1_0).view (m ((c : Thread nD τ).loc main_arg1)) (lastRow.idx (ix2 0 k)) = _
  rw [View.read_apply]
  refine congrArg (m ((c : Thread nD τ).loc main_arg1) : S2048x4096.Idx → Elt F .f32) ?_
  funext a; apply Fin.ext
  match a with
  | ⟨0, _⟩ => exact (by decide +kernel : win1_1.index t1_0 0 * 8 + 1 * (7 + 1 * 0) = 2047)
  | ⟨1, _⟩ =>
    show win1_1.index t1_0 1 * 4096 + 1 * (0 + 1 * k.val) = k.val
    rw [show win1_1.index t1_0 1 = 0 from by decide +kernel]; omega

/-- Row 7 of the block the second call stages of argument 2 is row 2047 of the argument. -/
theorem lastRow_read2 (c : Dev nD) (k : Fin 4096) :
    View.ld (rowBlk (E2 m ρ) c 2 t1_0 : Vec F S8x4096 .f32) lastRow (ix2 0 k)
      = (m ((c : Thread nD τ).loc main_arg2) : S2048x4096.Idx → Elt F .f32) (ix2 ⟨2047, by decide⟩ k) := by
  unfold rowBlk
  rw [show E2 m ρ c (Pipeline.arrRef spec1 2) = m ((c : Thread nD τ).loc main_arg2) from E2_arg m ρ c main_arg2 (by decide) (by decide)]
  show View.read (Elt F) ((cfg1.win 2).blk t1_0).view (m ((c : Thread nD τ).loc main_arg2)) (lastRow.idx (ix2 0 k)) = _
  rw [View.read_apply]
  refine congrArg (m ((c : Thread nD τ).loc main_arg2) : S2048x4096.Idx → Elt F .f32) ?_
  funext a; apply Fin.ext
  match a with
  | ⟨0, _⟩ => exact (by decide +kernel : win1_2.index t1_0 0 * 8 + 1 * (7 + 1 * 0) = 2047)
  | ⟨1, _⟩ =>
    show win1_2.index t1_0 1 * 4096 + 1 * (0 + 1 * k.val) = k.val
    rw [show win1_2.index t1_0 1 = 0 from by decide +kernel]; omega

/-- Entry (p, q) of the block the first call stages of argument 3 at point t is entry (256·t + p, q) of the argument. -/
theorem sumBlk_read0 (c : Dev nD) (t : Fin cfg0.N) (p : Fin 256) (q : Fin 4096) (r : Fin 2048) (hr : r.val = 256 * t.val + p.val) :
    (sumBlk (E0 m ρ) c 0 t : Vec F S256x4096 .f32) (ix2 p q)
      = (m ((c : Thread nD τ).loc main_arg3) : S2048x4096.Idx → Elt F .f32) (ix2 r q) := by
  have hi : win0_0.index t 0 = t.val ∧ win0_0.index t 1 = 0 :=
    (by decide +kernel : ∀ t : Fin grid0.N, win0_0.index t 0 = t.val ∧ win0_0.index t 1 = 0) t
  unfold sumBlk
  show View.read (Elt F) ((cfg0.win 0).blk t).view (m ((c : Thread nD τ).loc main_arg3)) (ix2 p q) = _
  rw [View.read_apply]
  refine congrArg (m ((c : Thread nD τ).loc main_arg3) : S2048x4096.Idx → Elt F .f32) ?_
  funext a; apply Fin.ext
  match a with
  | ⟨0, _⟩ => show win0_0.index t 0 * 256 + 1 * p.val = r.val; rw [hi.1, hr]; omega
  | ⟨1, _⟩ => show win0_0.index t 1 * 4096 + 1 * q.val = q.val; rw [hi.2]; omega

/-- Entry (p, q) of the block the first call stages of argument 4 at point t is entry (256·t + p, q) of the argument. -/
theorem sumBlk_read1 (c : Dev nD) (t : Fin cfg0.N) (p : Fin 256) (q : Fin 4096) (r : Fin 2048) (hr : r.val = 256 * t.val + p.val) :
    (sumBlk (E0 m ρ) c 1 t : Vec F S256x4096 .f32) (ix2 p q)
      = (m ((c : Thread nD τ).loc main_arg4) : S2048x4096.Idx → Elt F .f32) (ix2 r q) := by
  have hi : win0_1.index t 0 = t.val ∧ win0_1.index t 1 = 0 :=
    (by decide +kernel : ∀ t : Fin grid0.N, win0_1.index t 0 = t.val ∧ win0_1.index t 1 = 0) t
  unfold sumBlk
  show View.read (Elt F) ((cfg0.win 1).blk t).view (m ((c : Thread nD τ).loc main_arg4)) (ix2 p q) = _
  rw [View.read_apply]
  refine congrArg (m ((c : Thread nD τ).loc main_arg4) : S2048x4096.Idx → Elt F .f32) ?_
  funext a; apply Fin.ext
  match a with
  | ⟨0, _⟩ => show win0_1.index t 0 * 256 + 1 * p.val = r.val; rw [hi.1, hr]; omega
  | ⟨1, _⟩ => show win0_1.index t 1 * 4096 + 1 * q.val = q.val; rw [hi.2]; omega

end Cert.KernelIdeal.Frame

end
-- ==== Proof.KI.Sums.lean ====
/-
  The kernels' payloads read at the ideal instance, where a float is an extended real and every operation the exact one.
  Each is a plain sum:
    accumulate step   a ↦ a + Σ_{p<256} Σ_{q<4096} (y(p,q) - μ(p,q))²        (the block's sum of squared differences)
    quadratic form    Σ_{k<4096} (x(0,k) - m(0,k))² / v(0,k)                   (over a one-row block)
    log sum           Σ_{k<4096} log v(0,k)
  The lane reduction into one element is the sum over every index; a reshape keeps a total (it is a bijection of
  indices); a one-row array's total is the sum along the row. No finiteness is needed: these are re-indexings.
-/
import proofs.«103559_j20426864460201_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Sums

open Idealize.ShloMosaic Idealize.ShloMosaic.ValueIdx Cert.KernelIdeal.Gen

/-- A reshape keeps the total: it only re-indexes. -/
theorem sum_shapeCast {s t : Shape} (x : s.Idx → EReal) (h : s.ShapeCasts t) :
    ∑ j : t.Idx, shapeCast t x h j = ∑ k : s.Idx, x k := by
  unfold shapeCast; exact Equiv.sum_comp (Shape.reshapeEquiv h) x

/-- The total of a one-row array is the sum along the row. -/
theorem sum_row {n : Nat} (f : (⟨2, ![1, n]⟩ : Shape).Idx → EReal) : ∑ j, f j = ∑ k : Fin n, f (ix2 0 k) := by
  rw [sum_idx2]; exact Fin.sum_univ_one _

/-- The total of a vector is the sum over its coordinate. -/
theorem sum_vec {n : Nat} (f : (⟨1, ![n]⟩ : Shape).Idx → EReal) : ∑ j, f j = ∑ k : Fin n, f (ix1 k) :=
  (Equiv.sum_comp (⟨fun k => ix1 k, fun j => j 0, fun _ => rfl, fun j => (eq_ix1 j).symm⟩ : Fin n ≃ (⟨1, ![n]⟩ : Shape).Idx) f).symm

/-- The lane reduction into one element: the sum over every index of the source. -/
theorem reduce_all {s : Shape} {axes : List (Fin s.rank)} (src : FVec Ideal s .f32) (h : s.Reduces axes S1)
    (hφ : FKind.Formats .f32) (hacc : (0x00000000#32 : BitVec 32) = 0x00000000#32) (j : S1.Idx) :
    multiReduction (F := Ideal) .add axes S1 src 0x00000000#32 h hφ hacc j = ∑ i : s.Idx, src i :=
  Ideal.multiReduction_add_total src _ h (fun b => by fin_cases b; rfl) hφ hacc j

/-- One element reshaped to rank three, extracted, and splat over a one-element array: that element. -/
theorem splat_one (v : FVec Ideal S1 .f32) (y : S1x1.Idx) :
    (broadcast S1x1 (extractAt ![0, 0, 0] (shapeCast S1x1x1 v shapeCasts_S1_S1x1x1) inpos_S1x1x1_p0_0_0) : FVec Ideal S1x1 .f32) y
      = v (ix1 0) := by
  show shapeCast S1x1x1 v shapeCasts_S1_S1x1x1 (fun a => ⟨(![0, 0, 0] : Fin 3 → Nat) a, inpos_S1x1x1_p0_0_0 a⟩) = v (ix1 0)
  exact shapeCast_apply v shapeCasts_S1_S1x1x1 _ (ix1 0) (by rw [Shape.rowMajor_val_one, Shape.rowMajor_val_three]; rfl)

/-- The zero the accumulator is reset to. -/
theorem pay1_apply (y : S1x1.Idx) : k0_pay1 (F := Ideal) y = 0 := by
  unfold k0_pay1
  rw [shapeCast_self]
  exact Ideal.ofBits_zero_f32

/-- The accumulate step: the previous contents plus the block's sum of squared differences. -/
theorem pay2_apply (v3 v4 : Vec Ideal S256x4096 .f32) (v6 : Vec Ideal S1x1 .f32) (y : S1x1.Idx) :
    k0_pay2 (F := Ideal) v3 v4 v6 y
      = v6 y + ∑ p : Fin 256, ∑ q : Fin 4096, (v3 (ix2 p q) - v4 (ix2 p q)) * (v3 (ix2 p q) - v4 (ix2 p q)) := by
  unfold k0_pay2; dsimp only
  rw [shapeCast_self]
  refine congrArg (v6 y + ·) ?_
  refine (splat_one _ y).trans ?_
  refine (reduce_all _ _ _ _ _).trans ?_
  rw [sum_shapeCast, sum_idx2]
  rfl

/-- The quadratic-form sum over a one-row block. -/
theorem quad_apply (v0 v1 v2 : Vec Ideal S1x4096 .f32) (y : S1x1.Idx) :
    k1_pay1 (F := Ideal) v0 v1 v2 y
      = ∑ k : Fin 4096, Ideal.div ((v2 (ix2 0 k) - v0 (ix2 0 k)) * (v2 (ix2 0 k) - v0 (ix2 0 k))) (v1 (ix2 0 k)) := by
  unfold k1_pay1; dsimp only
  refine (splat_one _ y).trans ?_
  refine (reduce_all _ _ _ _ _).trans ?_
  rw [sum_shapeCast, sum_row]
  rfl

/-- The log sum over a one-row block. -/
theorem logsum_apply (v1 : Vec Ideal S1x4096 .f32) (y : S1x1.Idx) :
    k1_pay2 (F := Ideal) v1 y = ∑ k : Fin 4096, Ideal.log (v1 (ix2 0 k)) := by
  unfold k1_pay2; dsimp only
  refine (splat_one _ y).trans ?_
  refine (reduce_all _ _ _ _ _).trans ?_
  rw [sum_shapeCast, sum_row]
  rfl

end Cert.KernelIdeal.Sums

end
-- ==== Proof.KI.Bridge.lean ====
/-
  The two idealized programs compute one number. On the extended reals, with every operation exact:

    kernel      glue( 0-reset accumulator after 8 steps a ↦ a + Σ_{p<256} Σ_q (y(256t+p,q) - μ(256t+p,q))² ,
                      Σ_k (x(2047,k) - m(2047,k))² / v(2047,k) ,  Σ_k log v(2047,k) )
    reference   glue( 0 + Σ_{(r,q)} (y(r,q) - μ(r,q))² ,  0 + Σ_k (x_k - m_k)² / v_k ,  0 + Σ_k log v_k )   (x, m, v the last rows)

  with the same `glue` (the host operations both programs end with, the same words). The quadratic-form sum and the log
  sum agree term by term. The accumulated sum is the reference's total regrouped: the 2048 rows are 8 blocks of 256
  (r = 256·t + p), the accumulator adds the blocks' sums in order, and 0 + a = a. Addition on the extended reals is
  commutative and associative, so no finiteness is needed.
-/
import proofs.«103559_j20426864460201_1_alg».proof.Proof.KI.Reads
import proofs.«103559_j20426864460201_1_alg».proof.Proof.KI.Sums
import proofs.«103559_j20426864460201_1_alg».proof.Proof.Gen.ReferenceIdeal.Read

noncomputable section

namespace Cert.KernelIdeal.Bridge

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame Cert.KernelIdeal.Sums
open Cert.ReferenceIdeal (main_v27)

/-- A full argument array at the ideal instance. -/
abbrev Arr : Type := (⟨2, ![2048, 4096]⟩ : Shape).Idx → EReal

/-- The last row. -/
abbrev lastR : Fin 2048 := ⟨2047, by decide⟩

/-! ## The reference's three sums -/

/-- The reference's last-row vector of an argument, at `k`: the argument at (2047, k). -/
theorem ref_row1 (X : Arr) (k : Fin 4096) : Cert.ReferenceIdeal.Read.val_main_v1 (F := Ideal) X (ix1 k) = X (ix2 lastR k) := by
  rw [Cert.ReferenceIdeal.Read.val_main_v1_apply, Cert.ReferenceIdeal.Read.val_main_v0_apply]
  refine congrArg X ?_
  funext a; apply Fin.ext
  match a with
  | ⟨0, _⟩ => rfl
  | ⟨1, _⟩ => exact Nat.mod_eq_of_lt k.isLt
theorem ref_row3 (X : Arr) (k : Fin 4096) : Cert.ReferenceIdeal.Read.val_main_v3 (F := Ideal) X (ix1 k) = X (ix2 lastR k) := by
  rw [Cert.ReferenceIdeal.Read.val_main_v3_apply, Cert.ReferenceIdeal.Read.val_main_v2_apply]
  refine congrArg X ?_
  funext a; apply Fin.ext
  match a with
  | ⟨0, _⟩ => rfl
  | ⟨1, _⟩ => exact Nat.mod_eq_of_lt k.isLt
theorem ref_row5 (X : Arr) (k : Fin 4096) : Cert.ReferenceIdeal.Read.val_main_v5 (F := Ideal) X (ix1 k) = X (ix2 lastR k) := by
  rw [Cert.ReferenceIdeal.Read.val_main_v5_apply, Cert.ReferenceIdeal.Read.val_main_v4_apply]
  refine congrArg X ?_
  funext a; apply Fin.ext
  match a with
  | ⟨0, _⟩ => rfl
  | ⟨1, _⟩ => exact Nat.mod_eq_of_lt k.isLt

/-- The reference's quadratic-form sum. -/
theorem ref_quad (X0 X1 X2 : Arr) (i : Cert.ReferenceIdeal.S_.Idx) :
    Cert.ReferenceIdeal.Read.val_main_v9 (F := Ideal) X0 X1 X2 i
      = ∑ k : Fin 4096, Ideal.div ((X2 (ix2 lastR k) - X0 (ix2 lastR k)) * (X2 (ix2 lastR k) - X0 (ix2 lastR k))) (X1 (ix2 lastR k)) := by
  refine (Cert.ReferenceIdeal.Read.val_main_v9_apply X0 X1 X2 i).trans ?_
  refine (congrArg (· + _) Ideal.ofBits_zero_f32).trans ?_
  refine (zero_add _).trans ?_
  refine (sum_vec (n := 4096) _).trans ?_
  refine Finset.sum_congr rfl fun k _ => ?_
  show Ideal.div ((Cert.ReferenceIdeal.Read.val_main_v1 (F := Ideal) X2 (ix1 k) - Cert.ReferenceIdeal.Read.val_main_v3 (F := Ideal) X0 (ix1 k))
      * (Cert.ReferenceIdeal.Read.val_main_v1 (F := Ideal) X2 (ix1 k) - Cert.ReferenceIdeal.Read.val_main_v3 (F := Ideal) X0 (ix1 k)))
      (Cert.ReferenceIdeal.Read.val_main_v5 (F := Ideal) X1 (ix1 k)) = _
  rw [ref_row1, ref_row3, ref_row5]

/-- The reference's log sum. -/
theorem ref_log (X1 : Arr) (i : Cert.ReferenceIdeal.S_.Idx) :
    Cert.ReferenceIdeal.Read.val_main_v11 (F := Ideal) X1 i = ∑ k : Fin 4096, Ideal.log (X1 (ix2 lastR k)) := by
  refine (Cert.ReferenceIdeal.Read.val_main_v11_apply X1 i).trans ?_
  refine (congrArg (· + _) Ideal.ofBits_zero_f32).trans ?_
  refine (zero_add _).trans ?_
  refine (sum_vec (n := 4096) _).trans ?_
  refine Finset.sum_congr rfl fun k _ => ?_
  show Ideal.log (Cert.ReferenceIdeal.Read.val_main_v5 (F := Ideal) X1 (ix1 k)) = _
  rw [ref_row5]

/-- The squared difference of two arrays at an entry. -/
def sqd (X Y : Arr) (r : Fin 2048) (q : Fin 4096) : EReal := (X (ix2 r q) - Y (ix2 r q)) * (X (ix2 r q) - Y (ix2 r q))

/-- The reference's total of squared differences, row by row. -/
theorem ref_total (X3 X4 : Arr) (i : Cert.ReferenceIdeal.S_.Idx) :
    Cert.ReferenceIdeal.Read.val_main_v22 (F := Ideal) X3 X4 i = ∑ r : Fin 2048, ∑ q : Fin 4096, sqd X3 X4 r q := by
  refine (Cert.ReferenceIdeal.Read.val_main_v22_apply X3 X4 i).trans ?_
  refine (congrArg (· + _) Ideal.ofBits_zero_f32).trans ?_
  refine (zero_add _).trans ?_
  refine (sum_idx2 (n0 := 2048) (n1 := 4096) _).trans ?_
  rfl

/-- The 2048 rows are 8 blocks of 256: row 256·t + p is row p of block t. -/
theorem sum_rows_blocks (g : Fin 2048 → EReal) :
    ∑ r : Fin 2048, g r = ∑ t : Fin 8, ∑ p : Fin 256, g (finProdFinEquiv (t, p)) := by
  rw [← Fintype.sum_prod_type (f := fun x : Fin 8 × Fin 256 => g (finProdFinEquiv x))]
  exact (Equiv.sum_comp (finProdFinEquiv (m := 8) (n := 256)) g).symm

/-! ## The accumulator after each point -/

/-- A block's sum of squared differences. -/
def blockSum (x0 x1 : Vec Ideal S256x4096 .f32) : EReal :=
  ∑ p : Fin 256, ∑ q : Fin 4096, (x0 (ix2 p q) - x1 (ix2 p q)) * (x0 (ix2 p q) - x1 (ix2 p q))

section Acc
variable (V : (c : Dev nD) → (b : Ref sig .tc) → Buf (Elt Ideal) ((c : Thread nD τ).loc b))

/-- Position `j`'s contribution (nothing past the grid). -/
def contrib (c : Dev nD) (j : ℕ) : EReal :=
  if h : j < cfg0.N then blockSum (sumBlk V c 0 ⟨j, h⟩) (sumBlk V c 1 ⟨j, h⟩) else 0

/-- After position `n` the accumulator holds the contributions of positions 0 … n. -/
theorem acc_apply (c : Dev nD) : ∀ (n : ℕ) (hn : n < cfg0.N) (y : S1x1.Idx),
    accAfter V c n hn y = ∑ j ∈ Finset.range (n + 1), contrib V c j
  | 0, hn, y => by
    rw [Finset.sum_range_one]; unfold contrib; rw [dif_pos hn]
    show k0_pay2 (F := Ideal) _ _ _ y = _
    rw [pay2_apply, pay1_apply, zero_add]; rfl
  | n + 1, hn, y => by
    rw [Finset.sum_range_succ, ← acc_apply c n (Nat.lt_of_succ_lt hn) y]
    unfold contrib; rw [dif_pos hn]
    show k0_pay2 (F := Ideal) _ _ _ y = _
    rw [pay2_apply]; rfl

end Acc

variable (m : (ℓ : Loc nD τ sig) → Buf (Elt Ideal) ℓ) (ρ : Dev nD → PrngReg)

/-- The five argument arrays at launch. -/
abbrev A0 (c : Dev nD) : Arr := m ((c : Thread nD τ).loc main_arg0)
abbrev A1 (c : Dev nD) : Arr := m ((c : Thread nD τ).loc main_arg1)
abbrev A2 (c : Dev nD) : Arr := m ((c : Thread nD τ).loc main_arg2)
abbrev A3 (c : Dev nD) : Arr := m ((c : Thread nD τ).loc main_arg3)
abbrev A4 (c : Dev nD) : Arr := m ((c : Thread nD τ).loc main_arg4)

/-- Point `t`'s contribution is the squared differences of rows 256·t … 256·t + 255 of arguments 3 and 4. -/
theorem contrib_eq (c : Dev nD) (t : Fin 8) :
    contrib (E0 m ρ) c t.val = ∑ p : Fin 256, ∑ q : Fin 4096, sqd (A3 m c) (A4 m c) (finProdFinEquiv (t, p)) q := by
  have ht : t.val < cfg0.N := lt_of_lt_of_eq t.isLt (show 8 = cfg0.N from N_0.symm)
  unfold contrib; rw [dif_pos ht]; unfold blockSum
  refine Finset.sum_congr rfl fun p _ => Finset.sum_congr rfl fun q _ => ?_
  have hr : (finProdFinEquiv (t, p) : Fin (8 * 256)).val = 256 * (⟨t.val, ht⟩ : Fin cfg0.N).val + p.val := by
    show p.val + 256 * t.val = 256 * t.val + p.val; omega
  rw [sumBlk_read0 m ρ c ⟨t.val, ht⟩ p q (finProdFinEquiv (t, p)) hr, sumBlk_read1 m ρ c ⟨t.val, ht⟩ p q (finProdFinEquiv (t, p)) hr]
  rfl

/-! ## The three numbers agree -/

theorem quad_agree (c : Dev nD) :
    shapeCast S_ (quadOut (rowBlk (E2 m ρ) c 0 t1_0) (rowBlk (E2 m ρ) c 1 t1_0) (rowBlk (E2 m ρ) c 2 t1_0)) shapeCasts_S1x1_S_
      = Cert.ReferenceIdeal.Read.val_main_v9 (F := Ideal) (A0 m c) (A1 m c) (A2 m c) := by
  funext i
  refine Eq.trans ?_ (ref_quad (A0 m c) (A1 m c) (A2 m c) i).symm
  show quadOut _ _ _ (Shape.reshapeEquiv shapeCasts_S1x1_S_ i) = _
  unfold quadOut
  rw [View.canon_unit_zero off2_zero, quad_apply]
  refine Finset.sum_congr rfl fun k _ => ?_
  rw [lastRow_read0, lastRow_read1, lastRow_read2]

theorem log_agree (c : Dev nD) :
    shapeCast S_ (logOut (rowBlk (E2 m ρ) c 1 t1_0)) shapeCasts_S1x1_S_
      = Cert.ReferenceIdeal.Read.val_main_v11 (F := Ideal) (A1 m c) := by
  funext i
  refine Eq.trans ?_ (ref_log (A1 m c) i).symm
  show logOut _ (Shape.reshapeEquiv shapeCasts_S1x1_S_ i) = _
  unfold logOut
  rw [View.canon_unit_zero off2_zero, logsum_apply]
  refine Finset.sum_congr rfl fun k _ => ?_
  rw [lastRow_read1]

theorem total_agree (c : Dev nD) :
    shapeCast S_ (accAfter (E0 m ρ) c t0_7.val t0_7.isLt) shapeCasts_S1x1_S_
      = Cert.ReferenceIdeal.Read.val_main_v22 (F := Ideal) (A3 m c) (A4 m c) := by
  funext i
  refine Eq.trans ?_ (ref_total (A3 m c) (A4 m c) i).symm
  refine (acc_apply (E0 m ρ) c t0_7.val t0_7.isLt (Shape.reshapeEquiv shapeCasts_S1x1_S_ i)).trans ?_
  show ∑ j ∈ Finset.range 8, contrib (E0 m ρ) c j = _
  rw [Finset.sum_range, sum_rows_blocks]
  exact Finset.sum_congr rfl fun t _ => contrib_eq m ρ c t

/-- The reference's result is `glue` of its three sums: the operations after them are the kernel program's, word for word. -/
theorem ref_glue (X0 X1 X2 X3 X4 : Arr) :
    Cert.ReferenceIdeal.Read.val_main_v27 (F := Ideal) X0 X1 X2 X3 X4
      = glue (F := Ideal) (Cert.ReferenceIdeal.Read.val_main_v9 (F := Ideal) X0 X1 X2) (Cert.ReferenceIdeal.Read.val_main_v11 (F := Ideal) X1)
          (Cert.ReferenceIdeal.Read.val_main_v22 (F := Ideal) X3 X4) := rfl

/-- THE VALUE: the kernel program's result buffer at the return is the reference's result term of the launch arguments. -/
theorem result_eq (c : Dev nD) :
    B4 m ρ c (Proc.devRef .tc main_v17)
      = Cert.ReferenceIdeal.Read.val_main_v27 (F := Ideal) (A0 m c) (A1 m c) (A2 m c) (A3 m c) (A4 m c) := by
  rw [B4_result, quad_buffer, log_buffer, total_buffer, quad_agree, log_agree, total_agree, ref_glue]

end Cert.KernelIdeal.Bridge

end
-- ==== Proof.lean ====
/-
  The claim: a Gaussian negative-log-likelihood-plus-mean-squared-error loss, computed by a kernel program and by a
  plain reference, is one number on the extended reals.

  Both programs end with the same host operations `glue` applied to three sums:
    s1 = Σ_k (x_k - m_k)² / v_k     (x, m, v: row 2047 of arguments 2, 0, 1)
    s2 = Σ_k log v_k
    s3 = Σ_{r,q} (y(r,q) - μ(r,q))²   (arguments 3 and 4, all 2048 × 4096 entries)
  The reference takes each as one reduction from 0. The kernel program takes s1 and s2 in a one-point call over the
  8-row block that holds row 2047, and s3 in an eight-point call that keeps a one-element accumulator: zeroed at the
  first point, increased at point t by the sum over rows 256·t … 256·t+255, copied out after the last point. The sums
  agree by re-indexing and by 0 + a = a; addition on the extended reals is commutative and associative, so the
  precondition (finite inputs) is not used.

  The frames of the two kernel programs come from one run of @main's four items — call, host operations, call, host
  operations — that tracks every unscoped buffer's contents between items: no item writes an argument's buffer. The
  reference's frame is its run with the result dropped. The idealization rewrote nothing, so `preserves` is `True`.
-/
import proofs.«103559_j20426864460201_1_alg».proof.Defs
import proofs.«103559_j20426864460201_1_alg».proof.Proof.Gen.Kernel
import proofs.«103559_j20426864460201_1_alg».proof.Proof.Gen.KernelIdeal
import proofs.«103559_j20426864460201_1_alg».proof.Proof.Gen.ReferenceIdeal
import proofs.«103559_j20426864460201_1_alg».proof.Proof.Gen.Pre_finite_inputs
import proofs.«103559_j20426864460201_1_alg».proof.Proof.Gen.ReferenceIdeal.Run
import proofs.«103559_j20426864460201_1_alg».proof.Proof.Gen.ReferenceIdeal.Read
import proofs.«103559_j20426864460201_1_alg».proof.Proof.K.Result
import proofs.«103559_j20426864460201_1_alg».proof.Proof.KI.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Frame.frame (F := Bits) m ρ

/-- So does its idealization. -/
theorem frame_ki : Cert.frame_KernelIdeal := fun m ρ _ => Cert.KernelIdeal.Frame.frame (F := Ideal) m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the same result: the kernel program's
    result buffer at the return is the reference's result term of the launch arguments. -/
theorem algebraic : Cert.algebraic_KernelIdeal_ReferenceIdeal := by
  intro m ρ m' ρ' _ hagree
  refine ⟨fun c => Cert.KernelIdeal.Frame.B4 m ρ c (Proc.devRef .tc Cert.KernelIdeal.main_v17), ?_, ?_⟩
  · refine (θ_run Cert.KernelIdeal.defs _ _).mono (fun _ h c => ?_) (Cert.KernelIdeal.Frame.run_all (F := Ideal) m ρ)
    exact ⟨h c _ (Cert.KernelIdeal.Frame.mem_uc Cert.KernelIdeal.main_v17 (by decide)),
      (h c _ (Cert.KernelIdeal.Frame.mem_uc Cert.KernelIdeal.main_arg0 (by decide))).trans (Cert.KernelIdeal.Frame.B4_arg0 m ρ c),
      (h c _ (Cert.KernelIdeal.Frame.mem_uc Cert.KernelIdeal.main_arg1 (by decide))).trans (Cert.KernelIdeal.Frame.B4_arg1 m ρ c),
      (h c _ (Cert.KernelIdeal.Frame.mem_uc Cert.KernelIdeal.main_arg2 (by decide))).trans (Cert.KernelIdeal.Frame.B4_arg2 m ρ c),
      (h c _ (Cert.KernelIdeal.Frame.mem_uc Cert.KernelIdeal.main_arg3 (by decide))).trans (Cert.KernelIdeal.Frame.B4_arg3 m ρ c),
      (h c _ (Cert.KernelIdeal.Frame.mem_uc Cert.KernelIdeal.main_arg4 (by decide))).trans (Cert.KernelIdeal.Frame.B4_arg4 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, (hagree c).1, (hagree c).2.1, (hagree c).2.2.1, (hagree c).2.2.2.1, (hagree c).2.2.2.2]
    exact (Cert.KernelIdeal.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
